-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32000 : Shape := ⟨2, ![8192, 32000]⟩
abbrev S8192 : Shape := ⟨1, ![8192]⟩
abbrev S_ : Shape := ⟨0, ![]⟩

class Facts : Prop where
  bcast_S_S8192x32000 : S_.BroadcastsInDim S8192x32000 (![] : Fin 0 → Fin S8192x32000.rank)
  reducesTo_S8192x32000_S_d0_1 : S8192x32000.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x32000 .f32) (main_arg1 : IVec S8192 32) : IVec S_ 1 :=
  let main_v0 : FVec F S8192x32000 .f32 := Host.absf main_arg0
  let main_cst : FVec F S_ .f32 := constant S_ .f32 0x7F800000#32
  let main_v1 : FVec F S8192x32000 .f32 := broadcastInDim S8192x32000 ![] bcast_S_S8192x32000 main_cst
  let main_v2 : IVec S8192x32000 1 := cmpf .olt main_v0 main_v1
  let main_c : IVec S_ 1 := constantI S_ 1 1#1
  let main_v3 : IVec S_ 1 := (fun x v => Host.reduce IntOp.andi x v reducesTo_S8192x32000_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 32 := constantI S_ 32 32000#32
  let main_v6 : IVec S8192 32 := broadcastInDim S8192 ![] bcast_S_S8192 main_c_1
  let main_v7 : IVec S8192 1 := cmpi .slt main_arg1 main_v6
  let main_v8 : IVec S8192 1 := andi main_v5 main_v7
  let main_c_2 : IVec S_ 1 := constantI S_ 1 1#1
  let main_v9 : IVec S_ 1 := (fun x v => Host.reduce IntOp.andi x v reducesTo_S8192_S_d0 h_S_) main_v8 main_c_2
  let main_v10 : IVec S_ 1 := andi main_v3 main_v9
  main_v10
-- ==== Kernel.lean ====
abbrev S8192x32000 : Shape := ⟨2, ![8192, 32000]⟩
abbrev S8192 : Shape := ⟨1, ![8192]⟩
abbrev S8192x1 : Shape := ⟨2, ![8192, 1]⟩
abbrev S512x3200 : Shape := ⟨2, ![512, 3200]⟩
abbrev S512x1 : Shape := ⟨2, ![512, 1]⟩
abbrev S512 : Shape := ⟨1, ![512]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192x1, .i32⟩
  | .hbm, ⟨3, _⟩ => ⟨S8192x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S512x3200, .f32⟩
  | .local _ .vmem, ⟨1, _⟩ => ⟨S512x3200, .f32⟩
  | .local _ .vmem, ⟨2, _⟩ => ⟨S512x1, .i32⟩
  | .local _ .vmem, ⟨3, _⟩ => ⟨S512x1, .i32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | _, _ => ⟨S8192x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 10], ![false, false]⟩

def k0_cond2 (i : grid0.Coords) : BitVec 1 :=
  let arg1 : BitVec 32 := BitVec.ofNat 32 (i 1).val
  let c9_i32 : BitVec 32 := 9#32
  let v29 : BitVec 1 := Scalar.cmpi .eq arg1 c9_i32
  let v30 : BitVec 32 := Scalar.extui v29
  let c0_i32_14 : BitVec 32 := 0#32
  let v31 : BitVec 1 := Scalar.cmpi .ne v30 c0_i32_14
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8192_S8192x1 : S8192.ShapeCasts S8192x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x3200_S512x3200_0_0 : ∀ a, (![0, 0] : Fin 2 → Nat) a + S512x3200.size a ≤ S512x3200.size a
  h_S512x3200 : 0 < S512x3200.numel
  iota_S512x3200_d1_w32 : S512x3200.Iotas .tc 32 [1]
  broadcasts_S512x1_S512x3200 : S512x1.Broadcasts S512x3200
  reduces_S512x3200_S512 : S512x3200.Reduces [1] S512
  shapeCasts_S512_S512x1 : S512.ShapeCasts S512x1
  reducesTo_S8192x1_S_d0_1 : S8192x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3200.size a ≤ S8192x32000.size a
  hwx0_0 : ∀ i : grid0.Coords, EltTy.bits .f32 = 32 ∨ (Rect.block (s := S8192x32000) S512x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .i32 = 32 ∨ (Rect.block (s := S8192x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)

variable [Facts₀]

abbrev win0_0 : Pipeline.Window sig grid0 :=
  Pipeline.Window.ofSpec (Memref.whole main_arg0) S512x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x32000 : Shape := ⟨2, ![8192, 32000]⟩
abbrev S8192 : Shape := ⟨1, ![8192]⟩
abbrev S8192x1 : Shape := ⟨2, ![8192, 1]⟩
abbrev S1x32000 : Shape := ⟨2, ![1, 32000]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192x1, .i32⟩
  | .hbm, ⟨3, _⟩ => ⟨S1x32000, .i32⟩
  | .hbm, ⟨4, _⟩ => ⟨S8192x32000, .i32⟩
  | .hbm, ⟨5, _⟩ => ⟨S8192x32000, .i32⟩
  | .hbm, ⟨6, _⟩ => ⟨S8192x32000, .i1⟩
  | .hbm, ⟨7, _⟩ => ⟨S8192x32000, .f32⟩
  | .hbm, ⟨8, _⟩ => ⟨S_, .f32⟩
  | .hbm, ⟨9, _⟩ => ⟨S8192x32000, .f32⟩
  | .hbm, ⟨10, _⟩ => ⟨S8192x32000, .f32⟩
  | .hbm, ⟨11, _⟩ => ⟨S8192x32000, .f32⟩
  | .hbm, ⟨12, _⟩ => ⟨S8192x32000, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x32000, .f32⟩
  | .hbm, ⟨17, _⟩ => ⟨S8192x32000, .f32⟩
  | .hbm, ⟨18, _⟩ => ⟨S8192x32000, .f32⟩
  | .hbm, ⟨19, _⟩ => ⟨S_, .f32⟩
  | .hbm, ⟨20, _⟩ => ⟨S8192, .f32⟩
  | .hbm, ⟨21, _⟩ => ⟨S8192x32000, .f32⟩
  | .hbm, ⟨22, _⟩ => ⟨S8192x32000, .f32⟩
  | .hbm, ⟨23, _⟩ => ⟨S8192x32000, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S8192x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x32000_0_1 : S8192x1.BroadcastsInDim S8192x32000 (![0, 1] : Fin 2 → Fin S8192x32000.rank)
  bcast_S1x32000_S8192x32000_0_1 : S1x32000.BroadcastsInDim S8192x32000 (![0, 1] : Fin 2 → Fin S8192x32000.rank)
  bcast_S_S8192x32000 : S_.BroadcastsInDim S8192x32000 (![] : Fin 0 → Fin S8192x32000.rank)
  reducesTo_S8192x32000_S8192_d1 : S8192x32000.ReducesTo [1] S8192
  h_S_ : 0 < S_.numel
  reducesTo_S8192_S_d0 : S8192.ReducesTo [0] S_

variable [Facts₀]

class Facts : Prop extends Facts₀ where

variable [Facts]
-- ==== Proof.BodyCases.lean ====
/-
  What one run of the kernel body leaves behind, case by case.

  The body keeps two columns of 512 running values across the ten column tiles of a row block: the row sums of
  exp(logit), and the row sums of the logits whose column is the row's label (zero elsewhere). At the first tile of
  a row block both start from zero; at every tile each is increased by the tile's contribution; at the last tile the
  loss log(1 + (sum_exp * exp(0 - selected) - 1)) of the finished sums is stored to the output block.
-/
import proofs.«150498_j21827023798516_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-! What each case of the body leaves in the two carried accumulators and in the output block, as the body's
    arithmetic applied to the point's input blocks and to what the accumulators held before. -/

/-- A middle point adds the tile's row sums of exponentials to the first accumulator. -/
theorem sumAcc_B (c : Dev nD) (i : grid0.Coords) (arg2 : Memref sig .tc .vmem S512x3200 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : ¬cond0_1 i) (x0 : Vec F S512x3200 .f32) (x1 : Vec F S512x1 .i32) (xs0 xs1 : Vec F S512x1 .f32) :
    sout0_B_0 c i arg2 harg2 arg3 harg3 arg4 harg4 arg5 harg5 arg6 harg6 hc0 hc1 x0 x1 xs0 xs1 = k0_pay3 x0 xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  rw [View.canon_unit_zero hz]
  simp only [View.readAt_eq_ld, harg2.read_unread, harg3.read_unread, harg5.read_unread, harg6.read_unread,
    View.ld_unit_zero (S := S512x3200) hz, View.ld_unit_zero (S := S512x1) hz]

/-- A middle point adds the tile's selected logits to the second accumulator. -/
theorem selAcc_B (c : Dev nD) (i : grid0.Coords) (arg2 : Memref sig .tc .vmem S512x3200 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : ¬cond0_1 i) (x0 : Vec F S512x3200 .f32) (x1 : Vec F S512x1 .i32) (xs0 xs1 : Vec F S512x1 .f32) :
    sout0_B_1 c i arg2 harg2 arg3 harg3 arg4 harg4 arg5 harg5 arg6 harg6 hc0 hc1 x0 x1 xs0 xs1 = k0_pay4 i x0 x1 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  rw [View.canon_unit_zero hz]
  simp only [View.readAt_eq_ld, harg2.read_unread, harg3.read_unread, harg5.read_unread, harg6.read_unread,
    View.ld_unit_zero (S := S512x3200) hz, View.ld_unit_zero (S := S512x1) hz]

/-- The last point of a row block does the same to the first accumulator, -/
theorem sumAcc_C (c : Dev nD) (i : grid0.Coords) (arg2 : Memref sig .tc .vmem S512x3200 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i) (x0 : Vec F S512x3200 .f32) (x1 : Vec F S512x1 .i32) (xs0 xs1 : Vec F S512x1 .f32) :
    sout0_C_0 c i arg2 harg2 arg3 harg3 arg4 harg4 arg5 harg5 arg6 harg6 hc0 hc1 x0 x1 xs0 xs1 = k0_pay3 x0 xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero hz]
  simp only [View.readAt_eq_ld, harg2.read_unread, harg3.read_unread, harg5.read_unread, harg6.read_unread,
    View.ld_unit_zero (S := S512x3200) hz, View.ld_unit_zero (S := S512x1) hz]

/-- and to the second, -/
theorem selAcc_C (c : Dev nD) (i : grid0.Coords) (arg2 : Memref sig .tc .vmem S512x3200 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i) (x0 : Vec F S512x3200 .f32) (x1 : Vec F S512x1 .i32) (xs0 xs1 : Vec F S512x1 .f32) :
    sout0_C_1 c i arg2 harg2 arg3 harg3 arg4 harg4 arg5 harg5 arg6 harg6 hc0 hc1 x0 x1 xs0 xs1 = k0_pay4 i x0 x1 xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_unit_zero hz]
  simp only [View.readAt_eq_ld, harg2.read_unread, harg3.read_unread, harg5.read_unread, harg6.read_unread,
    View.ld_unit_zero (S := S512x3200) hz, View.ld_unit_zero (S := S512x1) hz]

/-- and stores the loss computed from the two accumulators it has just updated. -/
theorem out_C (c : Dev nD) (i : grid0.Coords) (arg2 : Memref sig .tc .vmem S512x3200 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i) (x0 : Vec F S512x3200 .f32) (x1 : Vec F S512x1 .i32) (xs0 xs1 : Vec F S512x1 .f32) :
    out0_C_2 c i arg2 harg2 arg3 harg3 arg4 harg4 arg5 harg5 arg6 harg6 hc0 hc1 x0 x1 xs0 xs1 = k0_pay5 (k0_pay3 x0 xs0) (k0_pay4 i x0 x1 xs1) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero hz]
  simp only [View.readCov_unit_zero (S := S512x1) _ hz, View.readAt_eq_ld, harg2.read_unread, harg3.read_unread, harg5.read_unread, harg6.read_unread,
    View.ld_unit_zero (S := S512x3200) hz, View.ld_unit_zero (S := S512x1) hz]

/-- The first point of a row block starts the first accumulator from zero, -/
theorem sumAcc_A (c : Dev nD) (i : grid0.Coords) (arg2 : Memref sig .tc .vmem S512x3200 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i) (x0 : Vec F S512x3200 .f32) (x1 : Vec F S512x1 .i32) :
    sout0_A_0 c i arg2 harg2 arg3 harg3 arg4 harg4 arg5 harg5 arg6 harg6 hc0 hc1 x0 x1 = k0_pay3 x0 k0_pay1 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S512x1) hz]
  simp only [View.readCov_unit_zero (S := S512x1) _ hz, View.readAt_eq_ld, harg2.read_unread, harg3.read_unread,
    View.ld_unit_zero (S := S512x3200) hz, View.ld_unit_zero (S := S512x1) hz]

/-- and the second. -/
theorem selAcc_A (c : Dev nD) (i : grid0.Coords) (arg2 : Memref sig .tc .vmem S512x3200 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i) (x0 : Vec F S512x3200 .f32) (x1 : Vec F S512x1 .i32) :
    sout0_A_1 c i arg2 harg2 arg3 harg3 arg4 harg4 arg5 harg5 arg6 harg6 hc0 hc1 x0 x1 = k0_pay4 i x0 x1 k0_pay2 := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S512x1) hz]
  simp only [View.readCov_unit_zero (S := S512x1) _ hz, View.readAt_eq_ld, harg2.read_unread, harg3.read_unread,
    View.ld_unit_zero (S := S512x3200) hz, View.ld_unit_zero (S := S512x1) hz]

end Cert.KernelIdeal.Pieces

end
-- ==== Proof.Accumulate.lean ====
/-
  How the two running sums move from one grid point to the next.

  The 160 points run row block by row block, ten column tiles each. At the first tile of a row block (point
  number ≡ 0 mod 10) the two running sums are the body's steps applied to zero columns; at every other tile they are
  the steps applied to what the point before left; and at the last tile (≡ 9 mod 10) the output block is the loss
  computed from the two sums of that very point.
-/
import proofs.«150498_j21827023798516_1_alg».proof.Proof.BodyCases

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Pieces

variable {F : FTy → Type} [FloatOps F]
variable (m : (ℓ : Loc nD τ sig) → Buf (Elt F) ℓ)

/-- The logits block and the label block of a point, as plain arrays. -/
abbrev xs (c : Dev nD) (t : Fin cfg0.N) : Vec F S512x3200 .f32 := iblk m c 0 t
abbrev ls (c : Dev nD) (t : Fin cfg0.N) : Vec F S512x1 .i32 := iblk m c 1 t

/-- First tile of a row block: both sums restart. -/
theorem first_tile (c : Dev nD) (t : Fin cfg0.N) (h0 : t.val % 10 = 0) :
    (outsAt0 m c t.val t.isLt).2.1 = k0_pay3 (F := F) (xs m c t) (k0_pay1 (F := F))
    ∧ (outsAt0 m c t.val t.isLt).2.2 = k0_pay4 (F := F) (grid0.coords t) (xs m c t) (ls m c t) (k0_pay2 (F := F)) := by
  have h1 : ¬t.val % 10 = 9 := by omega
  rw [outsAt0_A m c t h0 h1]
  dsimp only
  exact ⟨sumAcc_A (F := F) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (xs m c t) (ls m c t), selAcc_A (F := F) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (xs m c t) (ls m c t)⟩

/-- Any later tile: both sums continue from the point before. -/
theorem later_tile (c : Dev nD) (t : Fin cfg0.N) (h0 : ¬t.val % 10 = 0) :
    (outsAt0 m c t.val t.isLt).2.1 = k0_pay3 (F := F) (xs m c t) (outsAt0 m c (t.val - 1) (Nat.lt_of_le_of_lt (Nat.sub_le _ _) t.isLt)).2.1
    ∧ (outsAt0 m c t.val t.isLt).2.2 = k0_pay4 (F := F) (grid0.coords t) (xs m c t) (ls m c t) (outsAt0 m c (t.val - 1) (Nat.lt_of_le_of_lt (Nat.sub_le _ _) t.isLt)).2.2 := by
  by_cases h1 : t.val % 10 = 9
  · rw [outsAt0_C m c t h0 h1]
    dsimp only
    exact ⟨sumAcc_C (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (xs m c t) (ls m c t) (outsAt0 m c (t.val - 1) (Nat.lt_of_le_of_lt (Nat.sub_le _ _) t.isLt)).2.1 (outsAt0 m c (t.val - 1) (Nat.lt_of_le_of_lt (Nat.sub_le _ _) t.isLt)).2.2,
      selAcc_C (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (xs m c t) (ls m c t) (outsAt0 m c (t.val - 1) (Nat.lt_of_le_of_lt (Nat.sub_le _ _) t.isLt)).2.1 (outsAt0 m c (t.val - 1) (Nat.lt_of_le_of_lt (Nat.sub_le _ _) t.isLt)).2.2⟩
  · rw [outsAt0_B m c t h0 h1]
    dsimp only
    exact ⟨sumAcc_B (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (xs m c t) (ls m c t) (outsAt0 m c (t.val - 1) (Nat.lt_of_le_of_lt (Nat.sub_le _ _) t.isLt)).2.1 (outsAt0 m c (t.val - 1) (Nat.lt_of_le_of_lt (Nat.sub_le _ _) t.isLt)).2.2,
      selAcc_B (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (xs m c t) (ls m c t) (outsAt0 m c (t.val - 1) (Nat.lt_of_le_of_lt (Nat.sub_le _ _) t.isLt)).2.1 (outsAt0 m c (t.val - 1) (Nat.lt_of_le_of_lt (Nat.sub_le _ _) t.isLt)).2.2⟩

/-- Last tile of a row block: the output block is the loss of the two sums as this point leaves them. -/
theorem last_tile (c : Dev nD) (t : Fin cfg0.N) (h1 : t.val % 10 = 9) :
    (outsAt0 m c t.val t.isLt).1 = k0_pay5 (F := F) (outsAt0 m c t.val t.isLt).2.1 (outsAt0 m c t.val t.isLt).2.2 := by
  have h0 : ¬t.val % 10 = 0 := by omega
  rw [outsAt0_C m c t h0 h1]
  dsimp only
  rw [sumAcc_C (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (xs m c t) (ls m c t) (outsAt0 m c (t.val - 1) (Nat.lt_of_le_of_lt (Nat.sub_le _ _) t.isLt)).2.1 (outsAt0 m c (t.val - 1) (Nat.lt_of_le_of_lt (Nat.sub_le _ _) t.isLt)).2.2,
    selAcc_C (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (xs m c t) (ls m c t) (outsAt0 m c (t.val - 1) (Nat.lt_of_le_of_lt (Nat.sub_le _ _) t.isLt)).2.1 (outsAt0 m c (t.val - 1) (Nat.lt_of_le_of_lt (Nat.sub_le _ _) t.isLt)).2.2]
  exact out_C (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (xs m c t) (ls m c t) (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.Acc

end
-- ==== Proof.LibRowRead.lean ====
/-
  Reading row-wise operations of a two-dimensional array index by index.

  A sum over the second axis of an [a, b] array, taken by the accelerator's lane reduction or by the host's
  reduction, is at row p the sum over k < b of the array at (p, k). A vector [a] cast to the column [a, 1] reads at
  (p, 0) the vector at p. Two arrays of one shape laid side by side along the second axis (or one above the other
  along the first) read, in the first piece's range, the first piece, and past it the second piece shifted back.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.Lib.RowRead

open Idealize.ShloMosaic Idealize.ShloMosaic.ValueIdx

variable {α : Type}

/-- The source index of a reduction over the second axis: row p, coordinate k. -/
theorem lift_row {a b : ℕ} (h : (⟨2, ![a, b]⟩ : Shape).Reduces [(1 : Fin 2)] ⟨1, ![a]⟩) (p : Fin a) (k : Fin b) :
    h.lift (ix1 p) k = ix2 p k := by
  funext c; apply Fin.ext
  match c with
  | ⟨0, h0⟩ =>
    show h.liftVal (ix1 p) k.val ⟨0, h0⟩ = p.val
    unfold Shape.Reduces.liftVal
    split
    · next hc => exact absurd hc Nat.zero_ne_one
    · split
      · rfl
      · next hlt => exact absurd Nat.zero_lt_one hlt
  | ⟨1, h1⟩ =>
    show h.liftVal (ix1 p) k.val ⟨1, h1⟩ = k.val
    unfold Shape.Reduces.liftVal
    split
    · rfl
    · next hc => exact absurd rfl hc

/-- The accelerator's lane sum at row p. -/
theorem lane_sum {a b : ℕ} (src : FVec Ideal ⟨2, ![a, b]⟩ .f32) (h : (⟨2, ![a, b]⟩ : Shape).Reduces [(1 : Fin 2)] ⟨1, ![a]⟩)
    (hφ : FKind.Formats .f32) (hacc : (0x00000000#32 : BitVec FTy.f32.bits) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (lift_row h p k))

/-- The host's row sum at row p: the initial value plus the row's sum. -/
theorem host_row_sum {a b : ℕ} {u : Shape} (x : FVec Ideal ⟨2, ![a, b]⟩ .f32) (init : u.Idx → Ideal .f32)
    (h' : (⟨2, ![a, b]⟩ : Shape).ReducesTo [(1 : Fin 2)] ⟨1, ![a]⟩) (hu : 0 < u.numel)
    (h : (⟨2, ![a, b]⟩ : Shape).Reduces [(1 : Fin 2)] ⟨1, ![a]⟩) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (fun z => init (Shape.Idx.first hu) + z) (Finset.sum_congr rfl fun k _ => congrArg x (lift_row h p k))))

/-- A vector cast to a column. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- Two [a, b] arrays side by side: in the first b columns, the first. -/
theorem concat_cols_left {a b : ℕ} (x y : (⟨2, ![a, b]⟩ : Shape).Idx → α)
    (h : Shape.Concatenates [(⟨2, ![a, b]⟩ : Shape), ⟨2, ![a, b]⟩] ⟨2, ![a, b + b]⟩ (1 : Fin 2)) (p : Fin a) (k : Fin b) :
    concatenate ⟨2, ![a, b + b]⟩ (1 : Fin 2) [⟨⟨2, ![a, b]⟩, x⟩, ⟨⟨2, ![a, b]⟩, y⟩] h (ix2 p (Fin.castAdd b k)) = x (ix2 p k) :=
  concatenate_ofFn_apply (t := ⟨2, ![a, b + b]⟩) (s₁ := ⟨2, ![a, b]⟩) (1 : Fin 2) (N := 2) ![x, y] h rfl b rfl (ix2 p (Fin.castAdd b k))
    (0 : Fin 2) (Nat.div_eq_of_lt k.isLt) (ix2 p k) (Nat.mod_eq_of_lt k.isLt).symm
    (fun c hc => by match c with | ⟨0, _⟩ => rfl | ⟨1, _⟩ => exact absurd rfl hc)

/-- … and in the last b columns, the second. -/
theorem concat_cols_right {a b : ℕ} (x y : (⟨2, ![a, b]⟩ : Shape).Idx → α)
    (h : Shape.Concatenates [(⟨2, ![a, b]⟩ : Shape), ⟨2, ![a, b]⟩] ⟨2, ![a, b + b]⟩ (1 : Fin 2)) (p : Fin a) (k : Fin b) :
    concatenate ⟨2, ![a, b + b]⟩ (1 : Fin 2) [⟨⟨2, ![a, b]⟩, x⟩, ⟨⟨2, ![a, b]⟩, y⟩] h (ix2 p (Fin.natAdd b k)) = y (ix2 p k) :=
  concatenate_ofFn_apply (t := ⟨2, ![a, b + b]⟩) (s₁ := ⟨2, ![a, b]⟩) (1 : Fin 2) (N := 2) ![x, y] h rfl b rfl (ix2 p (Fin.natAdd b k))
    (1 : Fin 2) (by show (b + k.val) / b = 1; have := k.isLt; rw [Nat.add_div_left _ (by omega), Nat.div_eq_of_lt k.isLt])
    (ix2 p k) (by show k.val = (b + k.val) % b; rw [Nat.add_mod_left, Nat.mod_eq_of_lt k.isLt])
    (fun c hc => by match c with | ⟨0, _⟩ => rfl | ⟨1, _⟩ => exact absurd rfl hc)

/-- Two [a, b] arrays one above the other: in the first a rows, the first. -/
theorem concat_rows_top {a b : ℕ} (x y : (⟨2, ![a, b]⟩ : Shape).Idx → α)
    (h : Shape.Concatenates [(⟨2, ![a, b]⟩ : Shape), ⟨2, ![a, b]⟩] ⟨2, ![a + a, b]⟩ (0 : Fin 2)) (p : Fin a) (k : Fin b) :
    concatenate ⟨2, ![a + a, b]⟩ (0 : Fin 2) [⟨⟨2, ![a, b]⟩, x⟩, ⟨⟨2, ![a, b]⟩, y⟩] h (ix2 (Fin.castAdd a p) k) = x (ix2 p k) :=
  concatenate_ofFn_apply (t := ⟨2, ![a + a, b]⟩) (s₁ := ⟨2, ![a, b]⟩) (0 : Fin 2) (N := 2) ![x, y] h rfl a rfl (ix2 (Fin.castAdd a p) k)
    (0 : Fin 2) (Nat.div_eq_of_lt p.isLt) (ix2 p k) (Nat.mod_eq_of_lt p.isLt).symm
    (fun c hc => by match c with | ⟨0, _⟩ => exact absurd rfl hc | ⟨1, _⟩ => rfl)

/-- … and in the last a rows, the second. -/
theorem concat_rows_bottom {a b : ℕ} (x y : (⟨2, ![a, b]⟩ : Shape).Idx → α)
    (h : Shape.Concatenates [(⟨2, ![a, b]⟩ : Shape), ⟨2, ![a, b]⟩] ⟨2, ![a + a, b]⟩ (0 : Fin 2)) (p : Fin a) (k : Fin b) :
    concatenate ⟨2, ![a + a, b]⟩ (0 : Fin 2) [⟨⟨2, ![a, b]⟩, x⟩, ⟨⟨2, ![a, b]⟩, y⟩] h (ix2 (Fin.natAdd a p) k) = y (ix2 p k) :=
  concatenate_ofFn_apply (t := ⟨2, ![a + a, b]⟩) (s₁ := ⟨2, ![a, b]⟩) (0 : Fin 2) (N := 2) ![x, y] h rfl a rfl (ix2 (Fin.natAdd a p) k)
    (1 : Fin 2) (by show (a + p.val) / a = 1; have := p.isLt; rw [Nat.add_div_left _ (by omega), Nat.div_eq_of_lt p.isLt])
    (ix2 p k) (by show p.val = (a + p.val) % a; rw [Nat.add_mod_left, Nat.mod_eq_of_lt p.isLt])
    (fun c hc => by match c with | ⟨0, _⟩ => exact absurd rfl hc | ⟨1, _⟩ => rfl)

end Cert.Lib.RowRead

end
-- ==== Proof.LibHostRead.lean ====
/-
  Small layout operations read at an index: a scalar broadcast everywhere; a vector made a column, a column spread
  over the columns of a matrix, a vector made a row, a row spread over the rows of a matrix; a one-column matrix
  flattened; a column spread over a matrix by the accelerator's broadcast; and a matrix assembled from three blocks
  of columns.  Each reads the operand at the evident index.
-/
import Idealize.ShloMosaic.PureOps.Ideal
import Idealize.ShloMosaic.Lib.ValueIdx
import Idealize.ShloMosaic.Lib.ValueLayout
import Idealize.ShloMosaic.Lib.Pipeline.Value

noncomputable section

namespace Cert.LibHostRead

open Idealize.ShloMosaic Idealize.ShloMosaic.ValueIdx

variable {α : Type}

/-- A scalar broadcast to any shape reads the scalar everywhere. -/
theorem bcast_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector `[a]` made a column `[a, 1]` reads, at `(i, u)`, the vector at `i`. -/
theorem bcast_col_apply {a : Nat} (dims : Fin 1 → Fin 2) (hd : dims 0 = 0)
    (h : (⟨1, ![a]⟩ : Shape).BroadcastsInDim ⟨2, ![a, 1]⟩ dims)
    (x : (⟨1, ![a]⟩ : Shape).Idx → α) (i : Fin a) (u : Fin 1) :
    broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- A column `[a, 1]` spread over `[a, b]` reads, at `(i, c)`, the column at `i`. -/
theorem bcast_col_wide_apply {a b : Nat} (dims : Fin 2 → Fin 2) (hd0 : dims 0 = 0) (hd1 : dims 1 = 1)
    (h : (⟨2, ![a, 1]⟩ : Shape).BroadcastsInDim ⟨2, ![a, b]⟩ dims)
    (x : (⟨2, ![a, 1]⟩ : Shape).Idx → α) (i : Fin a) (c : Fin b) :
    broadcastInDim ⟨2, ![a, b]⟩ dims h x (ix2 i c) = x (ix2 i (0 : Fin 1)) := by
  refine broadcastInDim_apply dims h x (ix2 i c) (ix2 i (0 : Fin 1)) fun ax => ?_
  match ax with
  | ⟨0, _⟩ =>
    show i.val = if a = 1 then 0 else ((ix2 i c : (⟨2, ![a, b]⟩ : Shape).Idx) (dims 0)).val
    rw [hd0]
    split
    · have := i.isLt; omega
    · rfl
  | ⟨1, _⟩ =>
    show (0 : ℕ) = if (1 : ℕ) = 1 then 0 else _
    rw [if_pos rfl]

/-- A vector `[b]` made a row `[1, b]` reads, at `(u, c)`, the vector at `c`. -/
theorem bcast_row_apply {b : Nat} (dims : Fin 1 → Fin 2) (hd : dims 0 = 1)
    (h : (⟨1, ![b]⟩ : Shape).BroadcastsInDim ⟨2, ![1, b]⟩ dims)
    (x : (⟨1, ![b]⟩ : Shape).Idx → α) (u : Fin 1) (c : Fin b) :
    broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else ((ix2 u c : (⟨2, ![1, b]⟩ : Shape).Idx) (dims 0)).val
    rw [hd]
    split
    · have := c.isLt; omega
    · rfl

/-- A row `[1, b]` spread over `[a, b]` reads, at `(i, c)`, the row at `c`. -/
theorem bcast_row_wide_apply {a b : Nat} (dims : Fin 2 → Fin 2) (hd0 : dims 0 = 0) (hd1 : dims 1 = 1)
    (h : (⟨2, ![1, b]⟩ : Shape).BroadcastsInDim ⟨2, ![a, b]⟩ dims)
    (x : (⟨2, ![1, b]⟩ : Shape).Idx → α) (i : Fin a) (c : Fin b) :
    broadcastInDim ⟨2, ![a, b]⟩ dims h x (ix2 i c) = x (ix2 (0 : Fin 1) c) := by
  refine broadcastInDim_apply dims h x (ix2 i c) (ix2 (0 : Fin 1) c) fun ax => ?_
  match ax with
  | ⟨0, _⟩ =>
    show (0 : ℕ) = if (1 : ℕ) = 1 then 0 else _
    rw [if_pos rfl]
  | ⟨1, _⟩ =>
    show c.val = if b = 1 then 0 else ((ix2 i c : (⟨2, ![a, b]⟩ : Shape).Idx) (dims 1)).val
    rw [hd1]
    split
    · have := c.isLt; omega
    · rfl

/-- A one-column matrix `[a, 1]` flattened to `[a]` reads, at `i`, the matrix at `(i, 0)`. -/
theorem shapeCast_a1_a_apply {a : Nat} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The accelerator's broadcast of a column `[a, 1]` to `[a, b]` reads, at `(i, c)`, the column at `i`. -/
theorem broadcastTo_a1_ab_apply {a b : Nat} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

end Cert.LibHostRead

end
-- ==== Proof.BodyArith.lean ====
/-
  The body's arithmetic read at a row, on the extended reals.

  At row p of a tile: the first accumulator gains the sum over the tile's 3200 columns k of exp(logit(p, k)); the
  second gains the sum over k of the logit where the row's label equals the column's number 3200 * j + k (j the
  tile's number) and of 0 elsewhere; and the stored loss is log(1 + (a * exp(0 - b) - 1)) of the two accumulators.
-/
import proofs.«150498_j21827023798516_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«150498_j21827023798516_1_alg».proof.Proof.LibRowRead
import proofs.«150498_j21827023798516_1_alg».proof.Proof.LibHostRead

noncomputable section

namespace Cert.KernelIdeal.Arith

open Cert.KernelIdeal Cert.KernelIdeal.Gen Idealize.ShloMosaic Idealize.ShloMosaic.ValueIdx

/-- The f32 word of 1.0 is the number one. -/
theorem ofBits_one : Ideal.ofBits .f32 0x3F800000#32 = 1 := by
  simp [Ideal.ofBits, Ideal.ieee, -EReal.coe_mul]
  norm_num

/-- Choosing by a test of equality of two words. -/
theorem select_cmpi_eq {α : Type} (x y : BitVec 32) (a b : α) :
    Scalar.select (IntOp.cmpi .eq x y) a b = if x = y then a else b := by
  unfold Scalar.select IntOp.cmpi
  by_cases h : x = y
  · subst h; simp
  · have hb : (x == y) = false := by simpa using h
    simp [hb, h]

/-- Column k of tile j has number 3200 * j + k, also as 32-bit words. -/
theorem colWord (j k : ℕ) (hj : j < 10) (hk : k < 3200) :
    IntOp.addi (BitVec.ofNat 32 k) (Scalar.muli (BitVec.ofNat 32 j) 3200#32) = BitVec.ofNat 32 (3200 * j + k) := by
  unfold IntOp.addi Scalar.muli IntOp.muli
  apply BitVec.eq_of_toNat_eq
  simp only [BitVec.toNat_add, BitVec.toNat_mul, BitVec.toNat_ofNat]
  omega

/-- Both accumulators start at zero. -/
theorem zero1_apply (j : S512x1.Idx) : k0_pay1 (F := Ideal) j = 0 := by
  unfold k0_pay1
  rw [shapeCast_self]
  exact Ideal.ofBits_zero_f32

theorem zero2_apply (j : S512x1.Idx) : k0_pay2 (F := Ideal) j = 0 := by
  unfold k0_pay2
  rw [shapeCast_self]
  exact Ideal.ofBits_zero_f32

/-- The first accumulator's step at row p. -/
theorem sumStep_apply (v3 : Vec Ideal S512x3200 .f32) (v12 : Vec Ideal S512x1 .f32) (p : Fin 512) :
    k0_pay3 v3 v12 (ix2 p (0 : Fin 1)) = v12 (ix2 p (0 : Fin 1)) + ∑ k : Fin 3200, Ideal.exp (v3 (ix2 p k)) := by
  unfold k0_pay3
  dsimp only
  rw [shapeCast_self, addf_apply, Cert.Lib.RowRead.shapeCast_a_a1_apply]
  exact congrArg (v12 (ix2 p (0 : Fin 1)) + ·)
    (Cert.Lib.RowRead.lane_sum (exp v3) reduces_S512x3200_S512 (.inl rfl) rfl p)

/-- The second accumulator's step at row p of tile (i 1). -/
theorem selStep_apply (i : grid0.Coords) (v3 : Vec Ideal S512x3200 .f32) (v4 : Vec Ideal S512x1 .i32)
    (v20 : Vec Ideal S512x1 .f32) (p : Fin 512) :
    k0_pay4 i v3 v4 v20 (ix2 p (0 : Fin 1)) = v20 (ix2 p (0 : Fin 1))
      + ∑ k : Fin 3200, (if v4 (ix2 p (0 : Fin 1)) = BitVec.ofNat 32 (3200 * (i 1).val + k.val) then v3 (ix2 p k) else 0) := by
  have hj : (i 1).val < 10 := (i 1).isLt
  unfold k0_pay4
  dsimp only
  rw [shapeCast_self, addf_apply, Cert.Lib.RowRead.shapeCast_a_a1_apply]
  refine congrArg (v20 (ix2 p (0 : Fin 1)) + ·) ?_
  refine (Cert.Lib.RowRead.lane_sum _ reduces_S512x3200_S512 (.inl rfl) rfl p).trans ?_
  refine Finset.sum_congr rfl fun k _ => ?_
  rw [select_apply]
  show Scalar.select (IntOp.cmpi .eq (broadcastTo S512x3200 (shapeCast S512x1 v4 shapeCasts_S512x1_S512x1) broadcasts_S512x1_S512x3200 (ix2 p k))
      (IntOp.addi (iota .tc S512x3200 32 [1] iota_S512x3200_d1_w32 (ix2 p k)) (Scalar.muli (BitVec.ofNat 32 (i 1).val) 3200#32))) _ _ = _
  rw [shapeCast_self, Cert.LibHostRead.broadcastTo_a1_ab_apply, iota_single_apply, select_cmpi_eq]
  show (if v4 (ix2 p (0 : Fin 1)) = IntOp.addi (BitVec.ofNat 32 k.val) (Scalar.muli (BitVec.ofNat 32 (i 1).val) 3200#32) then _ else _) = _
  rw [colWord _ _ hj k.isLt, broadcast_apply, Ideal.ofBits_def, Ideal.ofBits_zero_f32]

/-- The stored loss at any entry. -/
theorem loss_apply (v32 v33 : Vec Ideal S512x1 .f32) (j : S512x1.Idx) :
    k0_pay5 v32 v33 j = Ideal.log1p (v32 j * Ideal.exp (0 - v33 j) - 1) := by
  unfold k0_pay5
  show Ideal.log1p (v32 j * Ideal.exp (Ideal.ofBits .f32 0x00000000#32 - v33 j) - Ideal.ofBits .f32 0x3F800000#32) = _
  rw [Ideal.ofBits_zero_f32, ofBits_one]

end Cert.KernelIdeal.Arith

end
-- ==== Proof.Blocks.lean ====
/-
  Which entries of the arguments a grid point sees.

  Point number n works on row block n / 10 and column tile n % 10: its logits block is rows 512 * (n / 10) + p and
  columns 3200 * (n % 10) + k of the logits, and its label block is the labels of the same rows (the labels, an
  array of 8192 words, having first been laid out as a column).
-/
import proofs.«150498_j21827023798516_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- Row p of row block b. -/
def rowOf (b : ℕ) (hb : b < 16) (p : Fin 512) : Fin 8192 := ⟨512 * b + p.val, by have := p.isLt; omega⟩

/-- Column k of column tile j. -/
def colOf (j : ℕ) (hj : j < 10) (k : Fin 3200) : Fin 32000 := ⟨3200 * j + k.val, by have := k.isLt; omega⟩

theorem lt160 (t : Fin cfg0.N) : t.val < 160 := lt_of_lt_of_eq t.isLt (show cfg0.N = 160 from N_0)
theorem blk_lt (t : Fin cfg0.N) : t.val / 10 < 16 := by have := lt160 t; omega
theorem tile_lt (t : Fin cfg0.N) : t.val % 10 < 10 := Nat.mod_lt _ (by decide)

/-- The block numbers of the three windows at each point, decided over the grid. -/
theorem idx_facts : ∀ t : Fin cfg0.N,
    win0_0.index t (0 : Fin 2) = t.val / 10 ∧ win0_0.index t (1 : Fin 2) = t.val % 10
    ∧ win0_1.index t (0 : Fin 2) = t.val / 10 ∧ win0_1.index t (1 : Fin 2) = 0
    ∧ win0_2.index t (0 : Fin 2) = t.val / 10 ∧ win0_2.index t (1 : Fin 2) = 0 :=
  (by decide +kernel : ∀ t : Fin grid0.N,
    win0_0.index t (0 : Fin 2) = t.val / 10 ∧ win0_0.index t (1 : Fin 2) = t.val % 10
    ∧ win0_1.index t (0 : Fin 2) = t.val / 10 ∧ win0_1.index t (1 : Fin 2) = 0
    ∧ win0_2.index t (0 : Fin 2) = t.val / 10 ∧ win0_2.index t (1 : Fin 2) = 0)

/-- The labels as the kernel's second operand: the label array laid out as a column. -/
theorem labels_col (c : Dev nD) :
    (V m c main_v0 : S8192x1.Idx → BitVec 32)
      = shapeCast S8192x1 (m ((c : Thread nD τ).loc main_arg1)) shapeCasts_S8192_S8192x1 := by
  show StableHlo.after hostOps0 (fun b => m (c, b)) (Proc.devRef .tc main_v0) = _
  after_results
  rfl

/-- The logits block of a point, entry (p, k). -/
theorem logits_block (c : Dev nD) (t : Fin cfg0.N) (p : Fin 512) (k : Fin 3200) :
    (iblk m c 0 t : Vec F S512x3200 .f32) (ix2 p k)
      = m ((c : Thread nD τ).loc main_arg0) (ix2 (rowOf (t.val / 10) (blk_lt t) p) (colOf (t.val % 10) (tile_lt t) k)) := by
  obtain ⟨e0, e1, -⟩ := idx_facts t
  unfold iblk
  rw [View.read_apply]
  show V m c main_arg0 _ = _
  rw [V_main_arg0 m c]
  congr 1
  funext a
  apply Fin.ext
  match a with
  | ⟨0, _⟩ => show win0_0.index t 0 * 512 + 1 * p.val = 512 * (t.val / 10) + p.val; rw [e0]; omega
  | ⟨1, _⟩ => show win0_0.index t 1 * 3200 + 1 * k.val = 3200 * (t.val % 10) + k.val; rw [e1]; omega

/-- The label block of a point, entry (p, 0). -/
theorem labels_block (c : Dev nD) (t : Fin cfg0.N) (p : Fin 512) :
    (iblk m c 1 t : Vec F S512x1 .i32) (ix2 p (0 : Fin 1))
      = m ((c : Thread nD τ).loc main_arg1) (ix1 (rowOf (t.val / 10) (blk_lt t) p)) := by
  obtain ⟨-, -, e0, e1, -⟩ := idx_facts t
  unfold iblk
  rw [View.read_apply]
  show V m c main_v0 _ = _
  rw [labels_col m c]
  refine shapeCast_apply _ _ _ (ix1 (rowOf (t.val / 10) (blk_lt t) p)) ?_
  rw [Shape.rowMajor_val_two, Shape.rowMajor_val_one]
  show 512 * (t.val / 10) + p.val = (win0_1.index t 0 * 512 + 1 * p.val) * 1 + (win0_1.index t 1 * 1 + 1 * 0)
  rw [e0, e1]; omega

end Cert.KernelIdeal.Blocks

end
-- ==== Proof.LibTileSum.lean ====
/-
  A sum over the rows of an array taken tile by tile: for N = T * R, the sum over all N rows is the sum over the T
  tiles of the sum over the R rows of each tile, row R * t + r being row r of tile t. Only commutativity and
  associativity of the addition are used, so the law holds in any commutative additive monoid (the extended reals
  included, infinities and all).
-/
import Mathlib.Algebra.BigOperators.Fin
import Mathlib.Logic.Equiv.Fin.Basic

namespace Cert.Lib.TileSum

open Finset

theorem row_lt {T R N : ℕ} (hN : T * R = N) (t : Fin T) (r : Fin R) : R * t.val + r.val < N := by
  have h1 : R * t.val + r.val < R * (t.val + 1) := by
    rw [Nat.mul_succ]; exact Nat.add_lt_add_left r.isLt _
  have h2 : R * (t.val + 1) ≤ R * T := Nat.mul_le_mul_left _ t.isLt
  rw [← hN, Nat.mul_comm T R]; exact lt_of_lt_of_le h1 h2

/-- The sum over N = T * R indices is the sum over T tiles of the sum over the R indices of each tile. -/
theorem sum_tiles {M : Type*} [AddCommMonoid M] (T R N : ℕ) (hN : T * R = N) (f : Fin N → M) :
    ∑ k : Fin N, f k = ∑ t : Fin T, ∑ r : Fin R, f ⟨R * t.val + r.val, row_lt hN t r⟩ := by
  subst hN
  rw [← (finProdFinEquiv (m := T) (n := R)).sum_comp, Fintype.sum_prod_type]
  refine Finset.sum_congr rfl fun t _ => Finset.sum_congr rfl fun r _ => ?_
  refine congrArg f (Fin.ext ?_)
  show r.val + R * t.val = R * t.val + r.val
  exact Nat.add_comm _ _

end Cert.Lib.TileSum
-- ==== Proof.LibTileRec.lean ====
/-
  A running sum built tile by tile is the sum over all rows. The accumulator starts at zero and each step adds
  "zero plus the sum over the R rows of tile t" (the zero being a reduction's initial value); after T steps it is
  the double sum over tiles and rows, and, when the rows of the T tiles are exactly the N = T · R rows of an
  array, the sum over the array's rows. Only the laws of a commutative additive monoid are used, so this holds
  on the extended reals, infinities included.
-/
import Mathlib.Algebra.BigOperators.Fin
import proofs.«150498_j21827023798516_1_alg».proof.Proof.LibTileSum

namespace Cert.Lib.TileRec

open Finset

/-- After T steps the accumulator is the double sum over the first T tiles. -/
theorem rec_eq_sum {M : Type*} [AddCommMonoid M] (R : ℕ) (f : ℕ → M) (acc : ℕ → M) (h0 : acc 0 = 0)
    (hs : ∀ t, acc (t + 1) = acc t + (0 + ∑ i : Fin R, f (R * t + i.val))) (T : ℕ) :
    acc T = ∑ t : Fin T, ∑ i : Fin R, f (R * t.val + i.val) := by
  induction T with
  | zero => simpa using h0
  | succ T ih =>
    rw [hs, ih, zero_add, Fin.sum_univ_castSucc]
    rfl

/-- When the step reads row R · t + i of an array of N = T · R rows (and anything past the array as zero), the
    accumulator after T steps is the sum over the array's rows. -/
theorem rec_eq_total {M : Type*} [AddCommMonoid M] (T R N : ℕ) (hN : T * R = N) (g : Fin N → M) (acc : ℕ → M)
    (h0 : acc 0 = 0)
    (hs : ∀ t, acc (t + 1) = acc t + (0 + ∑ i : Fin R, (if h : R * t + i.val < N then g ⟨R * t + i.val, h⟩ else 0))) :
    acc T = ∑ k : Fin N, g k := by
  rw [rec_eq_sum R (fun n => if h : n < N then g ⟨n, h⟩ else 0) acc h0 hs T, Cert.Lib.TileSum.sum_tiles T R N hN g]
  refine Finset.sum_congr rfl fun t _ => Finset.sum_congr rfl fun r _ => ?_
  exact dif_pos (Cert.Lib.TileSum.row_lt hN t r)

/-- The same with the step's row reader given as a function on the naturals that agrees with the array on its rows. -/
theorem rec_eq_total' {M : Type*} [AddCommMonoid M] (T R N : ℕ) (hN : T * R = N) (g : Fin N → M) (f : ℕ → M)
    (hf : ∀ n (h : n < N), f n = g ⟨n, h⟩) (acc : ℕ → M) (h0 : acc 0 = 0)
    (hs : ∀ t, acc (t + 1) = acc t + (0 + ∑ i : Fin R, f (R * t + i.val))) :
    acc T = ∑ k : Fin N, g k := by
  rw [rec_eq_sum R f acc h0 hs T, Cert.Lib.TileSum.sum_tiles T R N hN g]
  refine Finset.sum_congr rfl fun t _ => Finset.sum_congr rfl fun r _ => ?_
  exact hf _ (Cert.Lib.TileSum.row_lt hN t r)

end Cert.Lib.TileRec
-- ==== Proof.LibERealFin.lean ====
/-
  Finite sums and maxima of real numbers, read inside the extended reals.

  The extended reals carry the reals as a sub-structure closed under finite sums, finite maxima, products,
  exponentials and quotients by a nonzero real; each lemma below says that one such operation, applied to
  (coerced) real numbers, yields the (coerced) real result.
-/
import Mathlib
import Idealize.ShloMosaic.PureOps.Ideal

namespace Cert.LibERealFin

open Finset Idealize.ShloMosaic

/-- A finite sum of reals, taken in the extended reals, is the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of two reals, taken in the extended reals, is the real maximum. -/
theorem max_coe (x y : ℝ) : max (x : EReal) (y : EReal) = ((max x y : ℝ) : EReal) :=
  (EReal.coe_strictMono.monotone.map_max (a := x) (b := y)).symm

/-- The bottom element is neutral for the maximum with a real. -/
theorem max_bot_coe (x : ℝ) : max (⊥ : EReal) (x : EReal) = (x : EReal) :=
  max_eq_right bot_le

/-- The bottom element is neutral for the maximum, on the right. -/
theorem max_coe_bot (x : ℝ) : max (x : EReal) (⊥ : EReal) = (x : EReal) :=
  max_eq_left bot_le

/-- The supremum of a nonempty finite family of reals, taken in the extended reals, is the real supremum. -/
theorem sup_coe {ι : Type*} (s : Finset ι) (hs : s.Nonempty) (f : ι → ℝ) :
    s.sup (fun i => ((f i : ℝ) : EReal)) = ((s.sup' hs f : ℝ) : EReal) := by
  rw [← Finset.sup'_eq_sup hs]
  exact (Finset.comp_sup'_eq_sup'_comp hs (fun x : ℝ => (x : EReal)) (fun x y => (max_coe x y).symm)).symm

/-- Folding the maximum from the bottom element over a finite family is its supremum. -/
theorem fold_max_eq_sup {ι : Type*} (s : Finset ι) (g : ι → EReal) :
    s.fold max (⊥ : EReal) g = s.sup g := by
  classical
  induction s using Finset.induction_on with
  | empty => simp
  | insert a s ha ih => rw [Finset.fold_insert ha, Finset.sup_insert, ih]

/-- Folding the maximum from the bottom element over a nonempty finite family of reals gives the real supremum. -/
theorem fold_max_coe {ι : Type*} (s : Finset ι) (hs : s.Nonempty) (f : ι → ℝ) :
    s.fold max (⊥ : EReal) (fun i => ((f i : ℝ) : EReal)) = ((s.sup' hs f : ℝ) : EReal) := by
  rw [fold_max_eq_sup, sup_coe s hs f]

/-- The quotient of a real by a nonzero real, taken in the extended reals, is the real quotient. -/
theorem div_coe_coe (x : ℝ) {y : ℝ} (hy : y ≠ 0) :
    Ideal.div (x : EReal) (y : EReal) = ((x / y : ℝ) : EReal) := by
  rw [Ideal.div_coe hy, ← EReal.coe_mul, mul_one_div]

/-- The exponential of a real, taken in the extended reals, is the real exponential. -/
theorem exp_coe (x : ℝ) : Ideal.exp (x : EReal) = ((Real.exp x : ℝ) : EReal) := rfl

/-- The exponential of a difference of reals. -/
theorem exp_coe_sub (x y : ℝ) :
    Ideal.exp ((x : EReal) - (y : EReal)) = ((Real.exp (x - y) : ℝ) : EReal) := by
  rw [← EReal.coe_sub]; rfl

/-- The bottom element minus a real is the bottom element. -/
theorem bot_sub_coe (x : ℝ) : (⊥ : EReal) - (x : EReal) = ⊥ := by
  rw [sub_eq_add_neg, EReal.bot_add]

/-- The exponential of the bottom element minus a real is zero. -/
theorem exp_bot_sub_coe (x : ℝ) : Ideal.exp ((⊥ : EReal) - (x : EReal)) = 0 := by
  rw [bot_sub_coe]; rfl

/-- A vanishing product added on the left changes nothing. -/
theorem zero_mul_zero_add (x : EReal) : (0 : EReal) * 0 + x = x := by
  rw [zero_mul, zero_add]

/-- A zero factor on the left, added on the left, changes nothing. -/
theorem zero_mul_add (y x : EReal) : (0 : EReal) * y + x = x := by
  rw [zero_mul, zero_add]

/-- The product of two reals, taken in the extended reals, is the real product. -/
theorem mul_coe (x y : ℝ) : (x : EReal) * (y : EReal) = ((x * y : ℝ) : EReal) :=
  (EReal.coe_mul x y).symm

/-- The sum of two reals, taken in the extended reals, is the real sum. -/
theorem add_coe (x y : ℝ) : (x : EReal) + (y : EReal) = ((x + y : ℝ) : EReal) :=
  (EReal.coe_add x y).symm

/-- The difference of two reals, taken in the extended reals, is the real difference. -/
theorem sub_coe (x y : ℝ) : (x : EReal) - (y : EReal) = ((x - y : ℝ) : EReal) :=
  (EReal.coe_sub x y).symm

/-- A sum over a finite type of reals, taken in the extended reals, is the real sum. -/
theorem coe_sum_univ {ι : Type*} [Fintype ι] (f : ι → ℝ) :
    (∑ i, ((f i : ℝ) : EReal)) = ((∑ i, f i : ℝ) : EReal) :=
  coe_sum Finset.univ f

end Cert.LibERealFin
-- ==== Proof.LossSpec.lean ====
/-
  The loss of one row, in the two spellings that are compared.

  For a row of logits y and a label t, write E for the sum of exp y over the row.
  * From the sums: log(1 + (E * exp(0 - y_t) - 1)), where y_t is itself a sum over the row of the entries kept
    at the label and replaced by 0 elsewhere.
  * From the one-hot vector h (1 at t, 0 elsewhere): the sum over the row of
    log(1 + s * (h_k * exp(-y_k))), s being the sum of (1 - h_j) * exp y_j, divided by the sum of h.
  For real logits both are the real number log(E * exp(-y_t)): in the second, s = E - exp y_t, every term off the
  label is log 1 = 0, the sum of h is 1, and (E - exp y_t) * exp(-y_t) = E * exp(-y_t) - 1 because
  exp y_t * exp(-y_t) = 1.
-/
import Mathlib
import Idealize.ShloMosaic.PureOps.Ideal
import proofs.«150498_j21827023798516_1_alg».proof.Proof.LibERealFin

noncomputable section

namespace Cert.RowLoss

open Finset Idealize.ShloMosaic Cert.LibERealFin

variable {N : ℕ}

/-- The loss from the row's sum of exponentials and the logit selected by `hot`. -/
def lossOfSums (y : Fin N → EReal) (hot : Fin N → Prop) [DecidablePred hot] : EReal :=
  Ideal.log1p ((∑ k, Ideal.exp (y k)) * Ideal.exp (0 - ∑ k, (if hot k then y k else 0)) - 1)

/-- The loss from a one-hot vector `h`. -/
def lossOfOneHot (y : Fin N → EReal) (h : Fin N → EReal) : EReal :=
  Ideal.div
    (0 + ∑ k, Ideal.log1p ((0 + ∑ j, (1 - h j) * Ideal.exp (y j)) * (h k * Ideal.exp (-(y k)))))
    (0 + ∑ k, h k)

/-- The spelling from the sums depends on the selecting test only through which columns it selects. -/
theorem lossOfSums_congr (y : Fin N → EReal) (hot hot' : Fin N → Prop) [DecidablePred hot] [DecidablePred hot']
    (h : ∀ k, hot k ↔ hot' k) : lossOfSums y hot = lossOfSums y hot' := by
  unfold lossOfSums
  have e : (∑ k, (if hot k then y k else 0)) = ∑ k, (if hot' k then y k else 0) :=
    Finset.sum_congr rfl fun k _ => if_congr (h k) rfl rfl
  rw [e]

/-- The common value, a real number. -/
def lossReal (Y : Fin N → ℝ) (t : Fin N) : ℝ := Real.log ((∑ k, Real.exp (Y k)) * Real.exp (-(Y t)))

theorem sumExp_pos (Y : Fin N → ℝ) (t : Fin N) : 0 < ∑ k, Real.exp (Y k) :=
  Finset.sum_pos (fun k _ => Real.exp_pos _) ⟨t, Finset.mem_univ t⟩

/-- The logarithm of one plus a real above -1. -/
theorem log1p_coe {z : ℝ} (hz : 0 < 1 + z) : Ideal.log1p (z : EReal) = ((Real.log (1 + z) : ℝ) : EReal) := by
  unfold Ideal.log1p
  rw [← EReal.coe_one, add_coe, Ideal.log_coe, if_neg (not_le.mpr hz)]

theorem lossOfSums_coe (Y : Fin N → ℝ) (t : Fin N) :
    lossOfSums (fun k => ((Y k : ℝ) : EReal)) (fun k => k = t) = ((lossReal Y t : ℝ) : EReal) := by
  unfold lossOfSums lossReal
  have h1 : (∑ k, Ideal.exp ((Y k : ℝ) : EReal)) = ((∑ k, Real.exp (Y k) : ℝ) : EReal) := by
    simp only [exp_coe]; exact coe_sum_univ _
  have h2 : (∑ k, (if k = t then ((Y k : ℝ) : EReal) else 0)) = ((Y t : ℝ) : EReal) := by
    rw [Finset.sum_ite_eq' Finset.univ t (fun k => ((Y k : ℝ) : EReal)), if_pos (Finset.mem_univ t)]
  have h3 : (0 : EReal) - ((Y t : ℝ) : EReal) = ((-(Y t) : ℝ) : EReal) := by
    rw [zero_sub, EReal.coe_neg]
  rw [h1, h2, h3, exp_coe, mul_coe, ← EReal.coe_one, sub_coe]
  have hpos : 0 < (∑ k, Real.exp (Y k)) * Real.exp (-(Y t)) := mul_pos (sumExp_pos Y t) (Real.exp_pos _)
  rw [log1p_coe (by linarith)]
  congr 2
  ring

theorem lossOfOneHot_coe (Y : Fin N → ℝ) (t : Fin N) (h : Fin N → EReal)
    (hh : ∀ k, h k = (((if k = t then 1 else 0 : ℝ)) : EReal)) :
    lossOfOneHot (fun k => ((Y k : ℝ) : EReal)) h = ((lossReal Y t : ℝ) : EReal) := by
  obtain rfl : h = fun k => (((if k = t then 1 else 0 : ℝ)) : EReal) := funext hh
  unfold lossOfOneHot lossReal
  set E : ℝ := ∑ k, Real.exp (Y k) with hE
  -- the sum over the other classes
  have hs : (0 + ∑ j, (1 - (((if j = t then 1 else 0 : ℝ)) : EReal)) * Ideal.exp ((Y j : ℝ) : EReal))
      = ((E - Real.exp (Y t) : ℝ) : EReal) := by
    rw [zero_add]
    have e : ∀ j, (1 - (((if j = t then 1 else 0 : ℝ)) : EReal)) * Ideal.exp ((Y j : ℝ) : EReal)
        = (((1 - (if j = t then 1 else 0 : ℝ)) * Real.exp (Y j) : ℝ) : EReal) := fun j => by
      rw [exp_coe, ← EReal.coe_one, sub_coe, mul_coe]
    simp only [e]
    rw [coe_sum_univ]
    congr 1
    simp only [sub_mul, one_mul, Finset.sum_sub_distrib, ite_mul, zero_mul]
    rw [Finset.sum_ite_eq' Finset.univ t (fun j => Real.exp (Y j)), if_pos (Finset.mem_univ t)]
  have hsnn : 0 ≤ E - Real.exp (Y t) := by
    have : Real.exp (Y t) ≤ E :=
      Finset.single_le_sum (f := fun k => Real.exp (Y k)) (fun k _ => (Real.exp_pos _).le) (Finset.mem_univ t)
    linarith
  -- each term of the outer sum
  have ht : ∀ k, Ideal.log1p (((E - Real.exp (Y t) : ℝ) : EReal)
        * ((((if k = t then 1 else 0 : ℝ)) : EReal) * Ideal.exp (-((Y k : ℝ) : EReal))))
      = (((if k = t then Real.log (1 + (E - Real.exp (Y t)) * Real.exp (-(Y t))) else 0 : ℝ)) : EReal) := fun k => by
    rw [← EReal.coe_neg, exp_coe, mul_coe, mul_coe]
    by_cases hk : k = t
    · subst hk
      rw [if_pos rfl, if_pos rfl, one_mul]
      exact log1p_coe (by have := mul_nonneg hsnn (Real.exp_pos (-(Y k))).le; linarith)
    · rw [if_neg hk, if_neg hk, zero_mul, mul_zero]
      rw [log1p_coe (by norm_num), add_zero, Real.log_one]
  rw [hs]
  simp only [ht]
  rw [coe_sum_univ, coe_sum_univ, Finset.sum_ite_eq' Finset.univ t (fun _ => Real.log (1 + (E - Real.exp (Y t)) * Real.exp (-(Y t)))),
    if_pos (Finset.mem_univ t), Finset.sum_ite_eq' Finset.univ t (fun _ => (1 : ℝ)), if_pos (Finset.mem_univ t),
    zero_add, zero_add, div_coe_coe _ one_ne_zero, div_one]
  congr 2
  have : Real.exp (Y t) * Real.exp (-(Y t)) = 1 := by rw [← Real.exp_add, add_neg_cancel, Real.exp_zero]
  linear_combination (-1 : ℝ) * this

/-- For real logits the two spellings agree. -/
theorem lossOfSums_eq_lossOfOneHot (Y : Fin N → ℝ) (t : Fin N) (h : Fin N → EReal)
    (hh : ∀ k, h k = (((if k = t then 1 else 0 : ℝ)) : EReal)) :
    lossOfSums (fun k => ((Y k : ℝ) : EReal)) (fun k => k = t) = lossOfOneHot (fun k => ((Y k : ℝ) : EReal)) h :=
  (lossOfSums_coe Y t).trans (lossOfOneHot_coe Y t h hh).symm

end Cert.RowLoss

end
-- ==== Proof.RowSums.lean ====
/-
  The two running sums, and the loss stored from them, in closed form on the extended reals.

  Fix a row R of the logits. After the first j column tiles of R's row block the first running sum is the sum of
  exp(logit(R, n)) over the columns n < 3200 * j, and the second the sum over the same columns of logit(R, n) where
  n is R's label (as a 32-bit word) and of 0 elsewhere; both are built one tile at a time from zero. After the tenth
  tile they are the sums over the whole row, and the loss stored for R is log(1 + (sum_exp * exp(0 - selected) - 1)).
-/
import proofs.«150498_j21827023798516_1_alg».proof.Proof.Accumulate
import proofs.«150498_j21827023798516_1_alg».proof.Proof.BodyArith
import proofs.«150498_j21827023798516_1_alg».proof.Proof.Blocks
import proofs.«150498_j21827023798516_1_alg».proof.Proof.LibTileRec
import proofs.«150498_j21827023798516_1_alg».proof.Proof.LossSpec

noncomputable section

open Idealize.ShloMosaic Idealize.ShloMosaic.TcCoe Idealize.SL.Sem
open Idealize.ShloMosaic.Pipeline (Dat)

namespace Cert.KernelIdeal.RowSums

open Cert.KernelIdeal Cert.KernelIdeal.Gen Idealize.ShloMosaic.ValueIdx
open Cert.KernelIdeal.Blocks Cert.KernelIdeal.Acc Cert.KernelIdeal.Arith

variable (m : (ℓ : Loc nD τ sig) → Buf (Elt Ideal) ℓ)

/-- The logits and the labels, as launched. -/
abbrev logits (c : Dev nD) : S8192x32000.Idx → EReal := m ((c : Thread nD τ).loc main_arg0)
abbrev labels (c : Dev nD) : S8192.Idx → BitVec 32 := m ((c : Thread nD τ).loc main_arg1)

/-- exp(logit(R, n)), and 0 past the row's end. -/
def expAt (c : Dev nD) (R : Fin 8192) (n : ℕ) : EReal :=
  if h : n < 32000 then Ideal.exp (logits m c (ix2 R ⟨n, h⟩)) else 0

/-- logit(R, n) if n is R's label, else 0. -/
def selAt (c : Dev nD) (R : Fin 8192) (n : ℕ) : EReal :=
  if h : n < 32000 then (if labels m c (ix1 R) = BitVec.ofNat 32 n then logits m c (ix2 R ⟨n, h⟩) else 0) else 0

/-- A sum built tile by tile from zero. -/
def run (f : ℕ → EReal) : ℕ → EReal
  | 0 => 0
  | j + 1 => run f j + ∑ k : Fin 3200, f (3200 * j + k.val)

/-- After ten tiles it is the sum over the whole row. -/
theorem run_ten (f : ℕ → EReal) (g : Fin 32000 → EReal) (hf : ∀ n (h : n < 32000), f n = g ⟨n, h⟩) :
    run f 10 = ∑ k : Fin 32000, g k :=
  Cert.Lib.TileRec.rec_eq_total' 10 3200 32000 rfl g f hf (run f) rfl (fun j => by rw [zero_add]; rfl)

/-- The tile number of a point is its second grid coordinate. -/
theorem coord_tile : ∀ t : Fin cfg0.N, ((grid0.coords t) (1 : Fin 2)).val = t.val % 10 :=
  (by decide +kernel : ∀ t : Fin grid0.N, ((grid0.coords t) (1 : Fin 2)).val = t.val % 10)

/-- One step of the first sum at row p of a point. -/
theorem step_sum (c : Dev nD) (t : Fin cfg0.N) (prev : Vec Ideal S512x1 .f32) (p : Fin 512) :
    k0_pay3 (xs m c t) prev (ix2 p (0 : Fin 1))
      = prev (ix2 p (0 : Fin 1)) + ∑ k : Fin 3200, expAt m c (rowOf (t.val / 10) (blk_lt t) p) (3200 * (t.val % 10) + k.val) := by
  rw [sumStep_apply]
  refine congrArg (prev (ix2 p (0 : Fin 1)) + ·) (Finset.sum_congr rfl fun k _ => ?_)
  have hk : 3200 * (t.val % 10) + k.val < 32000 := (colOf (t.val % 10) (tile_lt t) k).isLt
  unfold expAt
  rw [dif_pos hk]
  exact congrArg Ideal.exp (logits_block m c t p k)

/-- One step of the second sum at row p of a point. -/
theorem step_sel (c : Dev nD) (t : Fin cfg0.N) (prev : Vec Ideal S512x1 .f32) (p : Fin 512) :
    k0_pay4 (grid0.coords t) (xs m c t) (ls m c t) prev (ix2 p (0 : Fin 1))
      = prev (ix2 p (0 : Fin 1)) + ∑ k : Fin 3200, selAt m c (rowOf (t.val / 10) (blk_lt t) p) (3200 * (t.val % 10) + k.val) := by
  rw [selStep_apply, coord_tile t]
  refine congrArg (prev (ix2 p (0 : Fin 1)) + ·) (Finset.sum_congr rfl fun k _ => ?_)
  have hk : 3200 * (t.val % 10) + k.val < 32000 := (colOf (t.val % 10) (tile_lt t) k).isLt
  unfold selAt
  have e1 : ls m c t (ix2 p (0 : Fin 1)) = labels m c (ix1 (rowOf (t.val / 10) (blk_lt t) p)) := labels_block m c t p
  have e2 : xs m c t (ix2 p k)
      = logits m c (ix2 (rowOf (t.val / 10) (blk_lt t) p) (colOf (t.val % 10) (tile_lt t) k)) := logits_block m c t p k
  rw [dif_pos hk, e1, e2]
  rfl

/-- The two running sums after every point, at every row of its row block. -/
theorem sums_at (c : Dev nD) : ∀ (n : ℕ) (h : n < cfg0.N) (p : Fin 512),
    (outsAt0 m c n h).2.1 (ix2 p (0 : Fin 1)) = run (expAt m c (rowOf (n / 10) (blk_lt ⟨n, h⟩) p)) (n % 10 + 1)
    ∧ (outsAt0 m c n h).2.2 (ix2 p (0 : Fin 1)) = run (selAt m c (rowOf (n / 10) (blk_lt ⟨n, h⟩) p)) (n % 10 + 1)
  | 0, h, p => by
    obtain ⟨e1, e2⟩ := first_tile m c ⟨0, h⟩ rfl
    refine ⟨?_, ?_⟩
    · show (outsAt0 m c (⟨0, h⟩ : Fin cfg0.N).val _).2.1 _ = _
      rw [e1, step_sum, zero1_apply]; rfl
    · show (outsAt0 m c (⟨0, h⟩ : Fin cfg0.N).val _).2.2 _ = _
      rw [e2, step_sel, zero2_apply]; rfl
  | n + 1, h, p => by
    by_cases h0 : (n + 1) % 10 = 0
    · obtain ⟨e1, e2⟩ := first_tile m c ⟨n + 1, h⟩ h0
      refine ⟨?_, ?_⟩
      · show (outsAt0 m c (⟨n + 1, h⟩ : Fin cfg0.N).val _).2.1 _ = _
        rw [e1, step_sum, zero1_apply]
        show _ = run _ ((n + 1) % 10 + 1)
        rw [h0]; rfl
      · show (outsAt0 m c (⟨n + 1, h⟩ : Fin cfg0.N).val _).2.2 _ = _
        rw [e2, step_sel, zero2_apply]
        show _ = run _ ((n + 1) % 10 + 1)
        rw [h0]; rfl
    · obtain ⟨e1, e2⟩ := later_tile m c ⟨n + 1, h⟩ h0
      obtain ⟨i1, i2⟩ := sums_at c n (Nat.lt_of_succ_lt h) p
      have hr : rowOf (n / 10) (blk_lt ⟨n, Nat.lt_of_succ_lt h⟩) p = rowOf ((n + 1) / 10) (blk_lt ⟨n + 1, h⟩) p :=
        Fin.ext (by show 512 * (n / 10) + p.val = 512 * ((n + 1) / 10) + p.val; omega)
      have hm : (n + 1) % 10 = n % 10 + 1 := by omega
      refine ⟨?_, ?_⟩
      · show (outsAt0 m c (⟨n + 1, h⟩ : Fin cfg0.N).val _).2.1 _ = _
        rw [e1, step_sum]
        show (outsAt0 m c n _).2.1 _ + _ = run _ ((n + 1) % 10 + 1)
        rw [i1, hr, hm]; rfl
      · show (outsAt0 m c (⟨n + 1, h⟩ : Fin cfg0.N).val _).2.2 _ = _
        rw [e2, step_sel]
        show (outsAt0 m c n _).2.2 _ + _ = run _ ((n + 1) % 10 + 1)
        rw [i2, hr, hm]; rfl

/-- The loss of row R from its logits and its label, in the spelling of sums. -/
def rowLoss (c : Dev nD) (R : Fin 8192) : EReal :=
  Cert.RowLoss.lossOfSums (fun k : Fin 32000 => logits m c (ix2 R k))
    (fun k : Fin 32000 => labels m c (ix1 R) = BitVec.ofNat 32 k.val)

/-- At the last tile of a row block the output block holds the rows' losses. -/
theorem block_out (c : Dev nD) (t : Fin cfg0.N) (h1 : t.val % 10 = 9) (p : Fin 512) :
    (outsAt0 m c t.val t.isLt).1 (ix2 p (0 : Fin 1)) = rowLoss m c (rowOf (t.val / 10) (blk_lt t) p) := by
  obtain ⟨i1, i2⟩ := sums_at m c t.val t.isLt p
  rw [last_tile m c t h1, loss_apply, i1, i2, h1]
  show Ideal.log1p (run _ 10 * Ideal.exp (0 - run _ 10) - 1) = _
  rw [run_ten (expAt m c (rowOf (t.val / 10) (blk_lt t) p))
      (fun k => Ideal.exp (logits m c (ix2 (rowOf (t.val / 10) (blk_lt t) p) k)))
      (fun n h => by unfold expAt; rw [dif_pos h]),
    run_ten (selAt m c (rowOf (t.val / 10) (blk_lt t) p))
      (fun k => if labels m c (ix1 (rowOf (t.val / 10) (blk_lt t) p)) = BitVec.ofNat 32 k.val
        then logits m c (ix2 (rowOf (t.val / 10) (blk_lt t) p) k) else 0)
      (fun n h => by unfold selAt; rw [dif_pos h])]
  rfl

end Cert.KernelIdeal.RowSums

end
-- ==== Proof.LossColumn.lean ====
/-
  The kernel's result array after the run: the column of the rows' losses.

  Only the last tile of a row block writes its output block back, and the block it writes is rows
  512 * b … 512 * b + 511 of the column; the sixteen row blocks cover the 8192 rows.
-/
import proofs.«150498_j21827023798516_1_alg».proof.Proof.RowSums

noncomputable section

open Idealize.ShloMosaic Idealize.ShloMosaic.TcCoe Idealize.SL.Sem
open Idealize.ShloMosaic.Pipeline (Dat)

namespace Cert.KernelIdeal.LossColumn

open Cert.KernelIdeal Cert.KernelIdeal.Gen Idealize.ShloMosaic.ValueIdx
open Cert.KernelIdeal.Blocks Cert.KernelIdeal.RowSums

variable (m : (ℓ : Loc nD τ sig) → Buf (Elt Ideal) ℓ)

/-- The column of losses: entry (R, 0) is row R's loss. -/
def lossCol (c : Dev nD) : Buf (Elt Ideal) ((c : Thread nD τ).loc main_v1) :=
  fun (i : S8192x1.Idx) => rowLoss m c ⟨(i 0).val, (i 0).isLt⟩

set_option maxRecDepth 65536 in
/-- What a writing point writes back is its block of the column. -/
theorem flushed_eq (c : Dev nD) (t : Fin cfg0.N) (hf : (cfg0.win 2).flush t = true) :
    (dats m 0 c).flushed 2 t = ((cfg0.win 2).blk t).view.read (Elt Ideal) (lossCol m c) := by
  have h9 : t.val % 10 = 9 := (flush0_2 t).mp hf
  obtain ⟨-, -, -, -, e0, e1⟩ := idx_facts t
  show (cfg0.win 2).cut (grid0.coords t) ((dats m 0 c).after 2 t) = _
  rw [after0_2]
  refine funext fun (j : S512x1.Idx) => ?_
  rw [View.read_apply]
  show (outsAt0 m c t.val t.isLt).1 j = lossCol m c (((cfg0.win 2).blk t).view.emb j)
  obtain ⟨p, u, rfl⟩ : ∃ (p : Fin 512) (u : Fin 1), j = ix2 p u := ⟨j 0, j 1, eq_ix2 j⟩
  obtain rfl : u = 0 := Subsingleton.elim _ _
  rw [block_out m c t h9 p]
  unfold lossCol
  refine congrArg (rowLoss m c) (Fin.ext ?_)
  show 512 * (t.val / 10) + p.val = win0_2.index t 0 * 512 + 1 * p.val
  rw [e0]; omega

/-- An entry of the column is in a point's block iff each coordinate is in the block's range. -/
theorem mem_blk (t : Fin cfg0.N) (i : S8192x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v1).slice (win0_2.rect t)).set ↔ _
  rw [View.set_slice_whole, Rect.mem_set_unit]
  exact Iff.rfl

/-- Every entry of the column is written by the last tile of its row block. -/
theorem cover (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 160 := N_0
  let t : Fin cfg0.N := ⟨10 * ((i 0).val / 512) + 9, by rw [hN]; omega⟩
  have ht : t.val = 10 * ((i 0).val / 512) + 9 := rfl
  obtain ⟨-, -, -, -, e0, e1⟩ := idx_facts t
  refine ⟨t, (flush0_2 t).mpr (by rw [ht]; omega), ?_⟩
  rw [mem_blk]
  intro a
  match a with
  | ⟨0, _⟩ => show win0_2.index t (0 : Fin 2) * 512 ≤ (i 0).val ∧ (i 0).val < win0_2.index t (0 : Fin 2) * 512 + 512; rw [e0, ht]; omega
  | ⟨1, _⟩ => show win0_2.index t (1 : Fin 2) * 1 ≤ (i 1).val ∧ (i 1).val < win0_2.index t (1 : Fin 2) * 1 + 1; rw [e1]; omega

/-- The result array after the run. -/
theorem final (c : Dev nD) : (dats m 0 c).arrAt 2 cfg0.N = lossCol m c :=
  (dats m 0 c).arrAt_eq_of_cover 2 (lossCol m c) (flushed_eq m c) (cover)

end Cert.KernelIdeal.LossColumn

end
-- ==== Proof.LibIdxSum.lean ====
/-
  Sums over the indices of small arrays as sums over their coordinates: a sum over the indices of a vector [n] is the
  sum over a : Fin n, and a sum over the indices of a one-column matrix [n, 1] is the sum over its n rows. Valid in
  any commutative additive monoid (the extended reals included).
-/
import Mathlib.Algebra.BigOperators.Fin
import Idealize.ShloMosaic.Lib.ValueIdx

namespace Cert.Lib.IdxSum

open Idealize.ShloMosaic Idealize.ShloMosaic.ValueIdx Finset

/-- A sum over the indices of a vector is the sum over its coordinate. -/
theorem sum_idx1 {M : Type*} [AddCommMonoid M] {n : ℕ} (f : (⟨1, ![n]⟩ : Shape).Idx → M) :
    ∑ j, f j = ∑ a : Fin n, f (ix1 a) := by
  let e : Fin n ≃ (⟨1, ![n]⟩ : Shape).Idx :=
    ⟨fun a => ix1 a, fun j => j 0, fun a => rfl, fun j => (eq_ix1 j).symm⟩
  exact (e.sum_comp f).symm

/-- A sum over the indices of a one-column matrix is the sum over its rows. -/
theorem sum_col {M : Type*} [AddCommMonoid M] {n : ℕ} (f : (⟨2, ![n, 1]⟩ : Shape).Idx → M) :
    ∑ j, f j = ∑ a : Fin n, f (ix2 a (0 : Fin 1)) := by
  rw [sum_idx2]
  refine Finset.sum_congr rfl fun a _ => ?_
  exact Fin.sum_univ_one _

end Cert.Lib.IdxSum
-- ==== Proof.MeanLoss.lean ====
/-
  The result of both programs as one function: the mean over the 8192 rows of a per-row loss, taken as
  "zero plus the sum" divided by the f32 word of 8192.0 (the same word in both programs, so it is never evaluated).
-/
import Idealize.ShloMosaic.PureOps.Ideal
import proofs.«150498_j21827023798516_1_alg».proof.Proof.LibIdxSum

noncomputable section

namespace Cert.MeanLoss

open Idealize.ShloMosaic Finset

/-- The mean of the rows' losses. -/
def mean (row : Fin 8192 → EReal) : EReal :=
  Ideal.div (0 + ∑ R : Fin 8192, row R) (Ideal.ofBits .f32 0x46000000#32)

end Cert.MeanLoss

end
-- ==== Proof.KernelRun.lean ====
/-
  The kernel program's run, read: after the region the host sums the column of losses from zero and divides by
  8192, so the result is the mean of the rows' losses; the two arguments end as they were.
-/
import proofs.«150498_j21827023798516_1_alg».proof.Proof.LossColumn
import proofs.«150498_j21827023798516_1_alg».proof.Proof.MeanLoss
import Idealize.ShloMosaic.Lib.StableHlo.Run
import Idealize.ShloMosaic.PureOps.Ideal.Laws

noncomputable section

open Idealize.ShloMosaic Idealize.ShloMosaic.TcCoe Idealize.SL.Sem
open Idealize.ShloMosaic.Pipeline (Dat)

namespace Cert.KernelIdeal.KernelRun

open Cert.KernelIdeal Cert.KernelIdeal.Gen Idealize.ShloMosaic.ValueIdx
open Cert.KernelIdeal.Blocks Cert.KernelIdeal.RowSums Cert.KernelIdeal.LossColumn

variable (m : (ℓ : Loc nD τ sig) → Buf (Elt Ideal) ℓ) (ρ : Dev nD → PrngReg)

/-- The result: the mean of the rows' losses. -/
def result (c : Dev nD) : Buf (Elt Ideal) ((c : Thread nD τ).loc main_v3) :=
  fun _ => Cert.MeanLoss.mean (rowLoss m c)

/-- The host's sum of the column from zero is zero plus the sum of the rows' losses. -/
theorem sum_col (c : Dev nD) (i : S_.Idx) :
    Host.reduceAdd (F := Ideal) (lossCol m c) (constant (F := Ideal) S_ .f32 0x00000000#32) reducesTo_S8192x1_S_d0_1 h_S_ i
      = 0 + ∑ R : Fin 8192, rowLoss m c R := by
  simp only [Host.reduceAdd, Ideal.hostReduceAdd_def]
  rw [Ideal.hostReduceAdd_total reducesTo_S8192x1_S_d0_1 (fun b => b.elim0) _ _ i, Cert.Lib.IdxSum.sum_col]
  show Ideal.ofBits .f32 0x00000000#32 + _ = _
  rw [Ideal.ofBits_zero_f32]
  rfl

/-- The lines after the region leave the mean in the result buffer. -/
theorem tail_eq (c : Dev nD) : Pipeline.afterTail₀ cfgs (dats m) 0 (V0 m) [hostOps1] c main_v3 = result m c := by
  unfold Pipeline.afterTail₀
  show StableHlo.after hostOps1 _ (Proc.devRef .tc main_v3) = _
  after_results
  have hA : Pipeline.withArrays (cfgs 0).spec c (V0 m c) (fun w => (dats m 0 c).arrAt w (cfgs 0).N) (Proc.devRef .tc main_v1)
      = lossCol m c :=
    (Pipeline.withArrays_arr spec0 launch0.win.arr_inj c _ _ 2).trans (final m c)
  rw [hA]
  funext i
  show Ideal.div (Host.reduceAdd (F := Ideal) (lossCol m c) (constant (F := Ideal) S_ .f32 0x00000000#32) reducesTo_S8192x1_S_d0_1 h_S_ i)
      (Ideal.ofBits .f32 0x46000000#32) = _
  rw [sum_col]
  rfl

/-- Every run of the kernel program ends with the mean of the rows' losses in its result and its arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v3 (Pipeline.mem_restRefs_of main_v3 (by decide) (by decide))).trans (tail_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.KernelRun

end
-- ==== Proof.RefLoss.lean ====
/-
  The reference read row by row.

  Row R of the reference's per-row quotient is the one-hot spelling of the loss, with the one-hot vector
  h_k = 1 if R's label equals k (as 32-bit words) and 0 otherwise; and the reference's result is the mean of the rows.
-/
import proofs.«150498_j21827023798516_1_alg».proof.Proof.Gen.ReferenceIdeal.Read
import proofs.«150498_j21827023798516_1_alg».proof.Proof.LossSpec
import proofs.«150498_j21827023798516_1_alg».proof.Proof.MeanLoss
import Idealize.ShloMosaic.PureOps.Ideal.Laws
import Idealize.ShloMosaic.Lib.ValueIdx

noncomputable section

namespace Cert.ReferenceIdeal.RefLoss

open Cert.ReferenceIdeal Cert.ReferenceIdeal.Gen Cert.ReferenceIdeal.Read
open Idealize.ShloMosaic Idealize.ShloMosaic.ValueIdx

/-- The one-hot entry: 1 if the label word equals the column's number, else 0. -/
def oneHot (lab : BitVec 32) (k : Fin 32000) : EReal :=
  (((IntOp.cmpi .eq lab (BitVec.ofNat 32 k.val)).toNat : ℝ) : EReal)

theorem ofBits_one : Ideal.ofBits .f32 0x3F800000#32 = 1 := by
  simp [Ideal.ofBits, Ideal.ieee, -EReal.coe_mul]
  norm_num

variable (x0 : (⟨S8192x32000, .f32⟩ : BufTy).Contents (Elt Ideal)) (x1 : (⟨S8192, .i32⟩ : BufTy).Contents (Elt Ideal))

/-- The one-hot matrix at (R, k). -/
theorem onehot_apply (R : Fin 8192) (k : Fin 32000) :
    val_main_v0 (F := Ideal) x1 (ix2 R k) = oneHot (x1 (ix1 R)) k := by
  have i0 : idx_main_call0_v0 (idx_main_call0_v2 (ix2 R k)) = ix1 R :=
    funext fun a => Fin.ext (by match a with | ⟨0, _⟩ => rfl)
  rw [val_main_v0_apply, val_main_call0_v4_apply, val_main_call0_v2_apply, val_main_call0_v0_apply,
    val_main_call0_v3_apply, val_main_call0_v1_apply, i0]
  rfl

/-- Row R of the sum over the other classes. -/
theorem sumNeg_apply (R : Fin 8192) :
    val_main_v5 (F := Ideal) x0 x1 (ix1 R)
      = 0 + ∑ k : Fin 32000, (1 - oneHot (x1 (ix1 R)) k) * Ideal.exp (x0 (ix2 R k)) := by
  rw [val_main_v5_apply, val_main_cst_0_apply, Ideal.ofBits_def, Ideal.ofBits_zero_f32]
  refine congrArg ((0 : EReal) + ·) (Finset.sum_congr rfl fun k _ => ?_)
  have ik : idx_main_v5 (ix1 R) k = ix2 R k :=
    funext fun a => Fin.ext (by match a with | ⟨0, _⟩ => rfl | ⟨1, _⟩ => rfl)
  rw [ik, val_main_v4_apply, val_main_v2_apply, val_main_v1_apply, val_main_cst_apply, val_main_v3_apply,
    onehot_apply, Ideal.ofBits_def, ofBits_one]
  rfl

set_option maxRecDepth 65536 in
/-- Row R of the reference's per-row quotient. -/
theorem row_apply (R : Fin 8192) :
    val_main_v15 (F := Ideal) x0 x1 (ix1 R)
      = Cert.RowLoss.lossOfOneHot (fun k : Fin 32000 => x0 (ix2 R k)) (fun k => oneHot (x1 (ix1 R)) k) := by
  rw [val_main_v15_apply, val_main_v14_apply, val_main_v10_apply, val_main_cst_2_apply, val_main_cst_1_apply,
    Ideal.ofBits_def, Ideal.ofBits_zero_f32]
  unfold Cert.RowLoss.lossOfOneHot
  refine congrArg₂ Ideal.div (congrArg ((0 : EReal) + ·) (Finset.sum_congr rfl fun k _ => ?_))
    (congrArg ((0 : EReal) + ·) (Finset.sum_congr rfl fun k _ => ?_))
  · have ik : idx_main_v14 (ix1 R) k = ix2 R k :=
      funext fun a => Fin.ext (by match a with | ⟨0, _⟩ => rfl | ⟨1, _⟩ => rfl)
    have i6 : idx_main_v6 (idx_main_v11 (ix2 R k)) = ix1 R :=
      funext fun a => Fin.ext (by match a with | ⟨0, _⟩ => rfl)
    rw [ik, val_main_v13_apply, val_main_v12_apply, val_main_v11_apply, val_main_v6_apply, i6, sumNeg_apply,
      val_main_v9_apply, onehot_apply, val_main_v8_apply, val_main_v7_apply]
    rfl
  · have ik : idx_main_v10 (ix1 R) k = ix2 R k :=
      funext fun a => Fin.ext (by match a with | ⟨0, _⟩ => rfl | ⟨1, _⟩ => rfl)
    rw [ik, onehot_apply]

/-- The reference's result is the mean of the rows. -/
theorem result_apply (i : S_.Idx) :
    val_main_v17 (F := Ideal) x0 x1 i
      = Cert.MeanLoss.mean (fun R => Cert.RowLoss.lossOfOneHot (fun k : Fin 32000 => x0 (ix2 R k)) (fun k => oneHot (x1 (ix1 R)) k)) := by
  rw [val_main_v17_apply, val_main_v16_apply, val_main_cst_3_apply, val_main_cst_4_apply, Ideal.ofBits_def, Ideal.ofBits_def,
    Ideal.ofBits_zero_f32, Cert.Lib.IdxSum.sum_idx1]
  unfold Cert.MeanLoss.mean
  simp only [row_apply]
  rfl

end Cert.ReferenceIdeal.RefLoss

end
-- ==== Proof.LibReal.lean ====
/-
  Extended reals that are real numbers. The finite operations keep them so: sums, differences, products, maxima, finite
  sums, the quotient by a nonzero real, and the reciprocal square root of a positive real. These are the facts that let
  a law of real arithmetic (distributivity, cancelling) be used on values a program computes from finite inputs.
-/
import Idealize.ShloMosaic.PureOps.Ideal

noncomputable section

namespace Cert.Lib.Real

open Idealize.ShloMosaic Finset

/-- The extended real is a real number. -/
def IsReal (x : EReal) : Prop := ∃ r : ℝ, x = (r : EReal)

/-- Every entry of the family is a real number. -/
def AllReal {ι : Type*} (x : ι → EReal) : Prop := ∀ i, IsReal (x i)

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a

theorem isReal_sum {ι : Type*} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The quotient of a real by a nonzero real is a real. -/
theorem IsReal.div_coe {x : EReal} (hx : IsReal x) {n : ℝ} (hn : n ≠ 0) : IsReal (Ideal.div x (n : EReal)) := by
  obtain ⟨a, rfl⟩ := hx
  rw [Ideal.div_coe hn, ← EReal.coe_mul]; exact ⟨_, rfl⟩

/-- The reciprocal square root of a positive real is a real. -/
theorem isReal_rsqrt_of_pos {r : ℝ} (hr : 0 < r) : IsReal (Ideal.rsqrt (r : EReal)) := by
  rw [Ideal.rsqrt_coe, if_neg (not_lt.mpr hr.le), if_neg hr.ne']; exact ⟨_, rfl⟩

/-- Reading a family through any map of indices keeps its entries real. -/
theorem AllReal.comp {ι κ : Type*} {x : ι → EReal} (hx : AllReal x) (g : κ → ι) : AllReal fun j => x (g j) :=
  fun j => hx (g j)

end Cert.Lib.Real

end
-- ==== Proof.Agreement.lean ====
/-
  For real logits and a label inside the row, the two spellings of a row's loss agree.

  The label word, below 32000 as an unsigned number, is the number t of exactly one column; the test "label word =
  word of column k" selects that column alone, and the one-hot entry built from the same test is 1 at t and 0
  elsewhere. The logits being real numbers, the agreement of the two spellings over the reals applies.
-/
import proofs.«150498_j21827023798516_1_alg».proof.Proof.LossSpec
import proofs.«150498_j21827023798516_1_alg».proof.Proof.RefLoss
import proofs.«150498_j21827023798516_1_alg».proof.Proof.LibReal
import Idealize.ShloMosaic.Lib.Affine
import Idealize.ShloMosaic.Lib.ValueIdx

noncomputable section

namespace Cert.Agreement

open Idealize.ShloMosaic Idealize.ShloMosaic.ValueIdx
open Cert.RowLoss Cert.ReferenceIdeal.RefLoss
open Cert.Lib.Real (IsReal)

/-- A word below 32000 equals the word of column k exactly when k is that number. -/
theorem word_eq_iff (w : BitVec 32) (hw : w.toNat < 32000) (k : Fin 32000) :
    w = BitVec.ofNat 32 k.val ↔ k = (⟨w.toNat, hw⟩ : Fin 32000) := by
  have hk := k.isLt
  constructor
  · intro h
    have := congrArg BitVec.toNat h
    rw [BitVec.toNat_ofNat] at this
    exact Fin.ext (by show k.val = w.toNat; omega)
  · intro h
    subst h
    apply BitVec.eq_of_toNat_eq
    rw [BitVec.toNat_ofNat]
    show w.toNat = w.toNat % 2 ^ 32
    omega

/-- The one-hot entry is 1 at the label's column and 0 elsewhere. -/
theorem oneHot_eq (w : BitVec 32) (hw : w.toNat < 32000) (k : Fin 32000) :
    oneHot w k = (((if k = (⟨w.toNat, hw⟩ : Fin 32000) then 1 else 0 : ℝ)) : EReal) := by
  unfold oneHot
  by_cases h : k = (⟨w.toNat, hw⟩ : Fin 32000)
  · rw [if_pos h, IntOp.cmpi_eq.mpr ((word_eq_iff w hw k).mpr h)]
    norm_num
  · rw [if_neg h, eq_zero_of_ne_one (fun e => h ((word_eq_iff w hw k).mp (IntOp.cmpi_eq.mp e)))]
    norm_num

/-- Row R: the spelling from the sums is the one-hot spelling. -/
theorem row_eq (y : (⟨2, ![8192, 32000]⟩ : Shape).Idx → EReal) (l : (⟨1, ![8192]⟩ : Shape).Idx → BitVec 32)
    (hy : ∀ i, IsReal (y i)) (hl : ∀ R : Fin 8192, (l (ix1 R)).toNat < 32000) (R : Fin 8192) :
    lossOfSums (fun k : Fin 32000 => y (ix2 R k)) (fun k : Fin 32000 => l (ix1 R) = BitVec.ofNat 32 k.val)
      = lossOfOneHot (fun k : Fin 32000 => y (ix2 R k)) (fun k => oneHot (l (ix1 R)) k) := by
  choose Y hY using hy
  have e1 : (fun k : Fin 32000 => y (ix2 R k)) = fun k : Fin 32000 => ((Y (ix2 R k) : ℝ) : EReal) :=
    funext fun k => hY _
  rw [e1, lossOfSums_congr _ _ _ (word_eq_iff (l (ix1 R)) (hl R))]
  exact lossOfSums_eq_lossOfOneHot (fun k : Fin 32000 => Y (ix2 R k)) ⟨(l (ix1 R)).toNat, hl R⟩ _
    (oneHot_eq (l (ix1 R)) (hl R))

end Cert.Agreement

end
-- ==== Proof.LibFinite.lean ====
/-
  From "every entry has absolute value below +∞" (a precondition's all-reduce by "and" of the comparisons
  |a| < +∞, stated to be 1) to "every entry is a real number", for an array of any shape on the extended reals.
-/
import Idealize.ShloMosaic.Lib.ReduceAll
import Idealize.ShloMosaic.PureOps.Ideal
import Idealize.ShloMosaic.PureOps.Ideal.Laws
import Idealize.ShloMosaic.Lib.ValueIdx
import Idealize.ShloMosaic.Lib.Pipeline.Value
import proofs.«150498_j21827023798516_1_alg».proof.Proof.LibReal

noncomputable section

namespace Cert.Lib.Finite

open Idealize.ShloMosaic
open Cert.Lib.Real (IsReal)

/-- The scalar shape. -/
abbrev S0 : Shape := ⟨0, ![]⟩

/-- The scalar shape has one index. -/
instance : Subsingleton S0.Idx := ⟨fun _ _ => funext fun d => d.elim0⟩

/-- The f32 pattern of +∞ is the top element. -/
theorem ofBits_inf : Ideal.ofBits .f32 0x7F800000#32 = ⊤ := by simp [Ideal.ofBits, Ideal.ieee]

/-- An extended real whose absolute value is below +∞ is a real number. -/
theorem isReal_of_abs_lt_top (x : EReal) (h : Ideal.cmp .olt (max x (-x)) ⊤ = 1#1) : IsReal x := by
  induction x using EReal.rec with
  | bot => simp [Ideal.cmp] at h
  | coe r => exact ⟨r, rfl⟩
  | top => simp [Ideal.cmp] at h

/-- If the all-reduce by "and" of the comparisons |a| < +∞ is 1, every entry of a is a real number. -/
theorem allReal_of_all_finite {s : Shape} {axes : List (Fin s.rank)} (a : FVec Ideal s .f32)
    (hb : S0.BroadcastsInDim s (![] : Fin 0 → Fin s.rank)) (red : s.ReducesTo axes S0) (hu : 0 < S0.numel)
    (e : Host.reduce IntOp.andi
          (cmpf .olt (Host.absf a) (broadcastInDim s ![] hb (constant (F := Ideal) S0 .f32 0x7F800000#32)))
          (constantI S0 1 1#1) red hu ValueIdx.ix0 = 1#1) : ∀ i, IsReal (a i) := by
  intro i
  have h1 := Host.reduce_andi_all _ _ red hu _ e i
  have h2 : broadcastInDim s ![] hb (constant (F := Ideal) S0 .f32 0x7F800000#32) i = ⊤ := by
    rw [broadcastInDim_apply _ hb _ i ValueIdx.ix0 (fun a => a.elim0)]
    exact ofBits_inf
  have h3 : Ideal.cmp .olt (max (a i) (-(a i))) ⊤ = 1#1 := by
    rw [← h2]; exact h1
  exact isReal_of_abs_lt_top _ h3

end Cert.Lib.Finite

end
-- ==== Proof.Domain.lean ====
/-
  What the precondition says of the inputs: every logit is a real number (its magnitude is below +∞), and every
  label, read as a signed 32-bit integer, lies in 0 ≤ label < 32000, so that as an unsigned number it is below 32000.
-/
import proofs.«150498_j21827023798516_1_alg».proof.Pre_finite_inputs
import Idealize.ShloMosaic.Lib.ReduceAll
import Idealize.ShloMosaic.Lib.Affine
import Idealize.ShloMosaic.Lib.ValueIdx
import Idealize.ShloMosaic.Lib.Pipeline.Value
import proofs.«150498_j21827023798516_1_alg».proof.Proof.LibFinite

noncomputable section

namespace Cert.Domain

open Idealize.ShloMosaic Idealize.ShloMosaic.ValueIdx Cert.Pre_finite_inputs
open Cert.Lib.Real (IsReal)

/-- A word between 0 and 32000 as a signed integer is below 32000 as an unsigned one. -/
theorem toNat_lt (w : BitVec 32) (h0 : (0#32 : BitVec 32).toInt ≤ w.toInt) (h1 : w.toInt < (32000#32 : BitVec 32).toInt) :
    w.toNat < 32000 := by
  have h32 := w.isLt
  have z : (0#32 : BitVec 32).toInt = 0 := by decide
  have b : (32000#32 : BitVec 32).toInt = 32000 := by decide
  rw [z] at h0
  rw [b] at h1
  rw [BitVec.toInt_eq_toNat_cond] at h0 h1
  split_ifs at h0 h1 <;> omega

variable [Facts]

/-- The precondition, unpacked. -/
theorem of_pre (y : FVec Ideal S8192x32000 .f32) (l : IVec S8192 32)
    (h : fn (F := Ideal) y l = fun _ => 1#1) :
    (∀ i, IsReal (y i)) ∧ (∀ R : Fin 8192, (l (ix1 R)).toNat < 32000) := by
  have e := congrFun h ix0
  unfold fn at e
  obtain ⟨e1, e2⟩ := IntOp.andi_eq_one.mp (show IntOp.andi _ _ = 1#1 from e)
  refine ⟨Cert.Lib.Finite.allReal_of_all_finite y Facts.bcast_S_S8192x32000 Facts.reducesTo_S8192x32000_S_d0_1 Facts.h_S_ e1, fun R => ?_⟩
  have e3 := Host.reduce_andi_all _ _ Facts.reducesTo_S8192_S_d0 Facts.h_S_ ix0 e2 (ix1 R)
  obtain ⟨g0, g1⟩ := IntOp.andi_eq_one.mp (show IntOp.andi _ _ = 1#1 from e3)
  have c0 : broadcastInDim S8192 ![] Facts.bcast_S_S8192 (constantI S_ 32 0#32) (ix1 R) = 0#32 :=
    broadcastInDim_apply _ Facts.bcast_S_S8192 _ (ix1 R) ix0 (fun a => a.elim0)
  have c1 : broadcastInDim S8192 ![] Facts.bcast_S_S8192 (constantI S_ 32 32000#32) (ix1 R) = 32000#32 :=
    broadcastInDim_apply _ Facts.bcast_S_S8192 _ (ix1 R) ix0 (fun a => a.elim0)
  have g0' := IntOp.cmpi_sge.mp (show IntOp.cmpi .sge (l (ix1 R)) _ = 1#1 from g0)
  have g1' := IntOp.cmpi_slt.mp (show IntOp.cmpi .slt (l (ix1 R)) _ = 1#1 from g1)
  rw [c0] at g0'
  rw [c1] at g1'
  exact toNat_lt _ g0' g1'

end Cert.Domain

end
-- ==== Proof.lean ====
/-
  The kernel streams the logits [8192, 32000] once, tile by tile, keeping per row the sum of exp(logit) and the
  logit at the row's label (picked out by comparing the label with the column numbers), and at the last tile of a row
  block stores log(1 + (sum_exp * exp(0 - logit_at_label) - 1)); the host then averages the 8192 stored values. The
  reference builds the one-hot matrix of the labels and computes, per row, the sum over the columns of
  log(1 + s * (h * exp(-logit))) with s the sum of exp(logit) over the other columns, divided by the number of ones
  in the row, and averages.

  Over the extended reals, for real logits and labels inside 0 ≤ label < 32000 (both from the precondition), each
  row's two values are the same real number log(sum_exp * exp(-logit_at_label)); the two averages are then the same
  term. The frames of the two kernel programs are the generated ones; the reference's frame is its generated run with
  the result dropped; the idealization rewrote nothing.
-/
import proofs.«150498_j21827023798516_1_alg».proof.Defs
import proofs.«150498_j21827023798516_1_alg».proof.Proof.Gen.Kernel
import proofs.«150498_j21827023798516_1_alg».proof.Proof.Gen.Kernel.Skeleton
import proofs.«150498_j21827023798516_1_alg».proof.Proof.Gen.Kernel.Launch
import proofs.«150498_j21827023798516_1_alg».proof.Proof.Gen.Kernel.Points
import proofs.«150498_j21827023798516_1_alg».proof.Proof.Gen.Kernel.Frame
import proofs.«150498_j21827023798516_1_alg».proof.Proof.Gen.KernelIdeal
import proofs.«150498_j21827023798516_1_alg».proof.Proof.Gen.KernelIdeal.Skeleton
import proofs.«150498_j21827023798516_1_alg».proof.Proof.Gen.KernelIdeal.Launch
import proofs.«150498_j21827023798516_1_alg».proof.Proof.Gen.KernelIdeal.Points
import proofs.«150498_j21827023798516_1_alg».proof.Proof.Gen.KernelIdeal.Frame
import proofs.«150498_j21827023798516_1_alg».proof.Proof.Gen.ReferenceIdeal
import proofs.«150498_j21827023798516_1_alg».proof.Proof.Gen.ReferenceIdeal.Run
import proofs.«150498_j21827023798516_1_alg».proof.Proof.Gen.ReferenceIdeal.Read
import proofs.«150498_j21827023798516_1_alg».proof.Proof.Gen.Pre_finite_inputs
import proofs.«150498_j21827023798516_1_alg».proof.Proof.KernelRun
import proofs.«150498_j21827023798516_1_alg».proof.Proof.RefLoss
import proofs.«150498_j21827023798516_1_alg».proof.Proof.Agreement
import proofs.«150498_j21827023798516_1_alg».proof.Proof.Domain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the mean of the rows' losses: the kernel's rows in the spelling from the sums, the
    reference's in the one-hot spelling, equal row by row for real logits and labels inside the row. -/
theorem algebraic : Cert.algebraic_KernelIdeal_ReferenceIdeal := by
  intro m ρ m' ρ' hpre hagree
  refine ⟨fun c => Cert.KernelIdeal.KernelRun.result m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2]
  obtain ⟨hy, hl⟩ := Cert.Domain.of_pre _ _ (hpre c)
  funext i
  rw [Cert.ReferenceIdeal.RefLoss.result_apply]
  show Cert.MeanLoss.mean _ = Cert.MeanLoss.mean _
  exact congrArg Cert.MeanLoss.mean (funext fun R => (Cert.Agreement.row_eq _ _ hy hl R).symm)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
